-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048x2048 .f32) (main_arg12 : FVec F S2048 .f32) (main_arg13 : FVec F S2048x2048 .f32) (main_arg14 : FVec F S2048 .f32) (main_v48 : IVec S_ 1) (main_v49 : FVec F S1x2048 .f32) (main_v50 : FVec F S1x2048 .f32) : IVec S_ 1 :=
  let main_v51 : IVec S1x2048 1 := cmpf .olt main_v49 main_v50
  let main_c_19 : IVec S_ 1 := constantI S_ 1 1#1
  let main_v52 : IVec S_ 1 := (fun x v => Host.reduce IntOp.andi x v reducesTo_S1x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S1x2048 .f32) (main_arg10 : FVec F S1x2048 .f32) (main_arg11 : FVec F S2048x2048 .f32) (main_arg12 : FVec F S2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S1x2048 .f32 := Host.absf main_arg10
  let main_cst_18 : FVec F S_ .f32 := constant S_ .f32 0x7F800000#32
  let main_v50 : FVec F S1x2048 .f32 := broadcastInDim S1x2048 ![] bcast_S_S1x2048 main_cst_18
  fn_part3 (F := F) main_arg11 main_arg12 main_arg13 main_arg14 main_v48 main_v49 main_v50

def fn_part1 {F : FTy → Type} [FloatOps F] (main_arg4 : FVec F S1024 .f32) (main_arg5 : FVec F S4096x1024 .f32) (main_arg6 : FVec F S4096 .f32) (main_arg7 : FVec F S2048x2048 .f32) (main_arg8 : FVec F S2048x2048 .f32) (main_arg9 : FVec F S1x2048 .f32) (main_arg10 : FVec F S1x2048 .f32) (main_arg11 : FVec F S2048x2048 .f32) (main_arg12 : FVec F S2048 .f32) (main_arg13 : FVec F S2048x2048 .f32) (main_arg14 : FVec F S2048 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x4096 .f32) (main_arg1 : FVec F S1024x4096 .f32) (main_arg2 : FVec F S1024 .f32) (main_arg3 : FVec F S1024x1024 .f32) (main_arg4 : FVec F S1024 .f32) (main_arg5 : FVec F S4096x1024 .f32) (main_arg6 : FVec F S4096 .f32) (main_arg7 : FVec F S2048x2048 .f32) (main_arg8 : FVec F S2048x2048 .f32) (main_arg9 : FVec F S1x2048 .f32) (main_arg10 : FVec F S1x2048 .f32) (main_arg11 : FVec F S2048x2048 .f32) (main_arg12 : FVec F S2048 .f32) (main_arg13 : FVec F S2048x2048 .f32) (main_arg14 : FVec F S2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S2048x2048 : Shape := ⟨2, ![2048, 2048]⟩
abbrev S1x2048 : Shape := ⟨2, ![1, 2048]⟩
abbrev S2048 : Shape := ⟨1, ![2048]⟩
abbrev S1x1024 : Shape := ⟨2, ![1, 1024]⟩
abbrev S1x4096 : Shape := ⟨2, ![1, 4096]⟩
abbrev S256x4096 : Shape := ⟨2, ![256, 4096]⟩
abbrev S256x1024 : Shape := ⟨2, ![256, 1024]⟩
abbrev S8192x2048 : Shape := ⟨2, ![8192, 2048]⟩
abbrev S128x2048 : Shape := ⟨2, ![128, 2048]⟩

abbrev nBuf : Space → Nat
  | .hbm => 30
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S1024x4096, .bf16⟩
  | .hbm, ⟨16, _⟩ => ⟨S1024x1024, .bf16⟩
  | .hbm, ⟨17, _⟩ => ⟨S4096x1024, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S1x1024, .f32⟩
  | .hbm, ⟨23, _⟩ => ⟨S1x1024, .f32⟩
  | .hbm, ⟨24, _⟩ => ⟨S1x4096, .f32⟩
  | .hbm, ⟨25, _⟩ => ⟨S8192x4096, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S4096x1024, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S2048x2048, .bf16⟩
  | .local _ .vmem, ⟨15, _⟩ => ⟨S2048x2048, .bf16⟩
  | .local _ .vmem, ⟨16, _⟩ => ⟨S2048x2048, .bf16⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  shapeCasts_S1024_S1x1024 : S1024.ShapeCasts S1x1024
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  shapeCasts_S1x2048_S1x2048 : S1x2048.ShapeCasts S1x2048
  dot_S256x4096_S1024x4096_S256x1024_1_1_0_0_n_n_wf : DotDims.WF S256x4096 S1024x4096 S256x1024 [1] [1] [0] [0] [] []
  dot_S256x1024_S1024x1024_S256x1024_1_1_0_0_n_n_wf : DotDims.WF S256x1024 S1024x1024 S256x1024 [1] [1] [0] [0] [] []
  dot_S256x1024_S4096x1024_S256x4096_1_1_0_0_n_n_wf : DotDims.WF S256x1024 S4096x1024 S256x4096 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .f32 = 32 ∨ (Rect.block (s := S8192x4096) S256x4096.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S8192x4096.size a
  hwx1_0 : ∀ i : grid1.Coords, EltTy.bits .f32 = 32 ∨ (Rect.block (s := S8192x4096) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S8192x4096.size a
  hwx1_1 : ∀ i : grid1.Coords, EltTy.bits .f32 = 32 ∨ (Rect.block (s := S8192x4096) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x2048.size a ≤ S8192x2048.size a
  hwx1_10 : ∀ i : grid1.Coords, EltTy.bits .f32 = 32 ∨ (Rect.block (s := S8192x2048) S128x2048.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x2048.size a ≤ S8192x2048.size a
  hwx1_11 : ∀ i : grid1.Coords, EltTy.bits .f32 = 32 ∨ (Rect.block (s := S8192x2048) S128x2048.size (cc1_transform_11 i) (hinb1_11 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2048x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13_0) S128x2048.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v13_1) S128x2048.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S2048x2048 : Shape := ⟨2, ![2048, 2048]⟩
abbrev S1x2048 : Shape := ⟨2, ![1, 2048]⟩
abbrev S2048 : Shape := ⟨1, ![2048]⟩
abbrev S8192x1024 : Shape := ⟨2, ![8192, 1024]⟩
abbrev S1x1024 : Shape := ⟨2, ![1, 1024]⟩
abbrev S_ : Shape := ⟨0, ![]⟩
abbrev S1x4096 : Shape := ⟨2, ![1, 4096]⟩
abbrev S8192x2048 : Shape := ⟨2, ![8192, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S4096x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1024x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2048x2048, .f32⟩
  | .hbm, ⟨43, _⟩ => ⟨S8192x2048, .f32⟩
  | .hbm, ⟨44, _⟩ => ⟨S2048x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S2048x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S2048x2048, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x2048_0_0 : S8192x4096.Slices ![0, 0] S8192x2048
  slices_S8192x4096_S8192x2048_0_2048 : S8192x4096.Slices ![0, 2048] S8192x2048
  transposes_S2048x2048_S2048x2048_1_0 : S2048x2048.Transposes [1, 0] S2048x2048
  bcast_S1x2048_S8192x2048_0_1 : S1x2048.BroadcastsInDim S8192x2048 (![0, 1] : Fin 2 → Fin S8192x2048.rank)
  bcast_S2048_S1x2048_1 : S2048.BroadcastsInDim S1x2048 (![1] : Fin 1 → Fin S1x2048.rank)
  dot_S8192x4096_S4096x1024_S8192x1024_1_0_0_1_n_n_wf : DotDims.WF S8192x4096 S4096x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x4096_S8192x4096_1_0_0_1_n_n_wf : DotDims.WF S8192x1024 S1024x4096 S8192x4096 [1] [0] [0] [1] [] []
  dot_S8192x2048_S2048x2048_S8192x2048_1_0_0_1_n_n_wf : DotDims.WF S8192x2048 S2048x2048 S8192x2048 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KEncBody.lean ====
import proofs.«112110_j14396730376924_2_alg».proof.Proof.Gen.Kernel.Launch
import proofs.«112110_j14396730376924_2_alg».proof.Proof.Gen.Kernel.Skeleton
import proofs.«112110_j14396730376924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the encoder body, at the contents `V` the region is entered with -/

/-! ## The windows' blocks -/

/-- The block of window `w` at grid point `t`: the window's view at that point read off the array's contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each is the whole of its buffer -/

abbrev rE : Rect S256x4096 := Rect.unit (s := S256x4096) ![0, 0] S256x4096.size inb_S256x4096_S256x4096_0_0
abbrev rE1 : Rect S1024x4096 := Rect.unit (s := S1024x4096) ![0, 0] S1024x4096.size inb_S1024x4096_S1024x4096_0_0
abbrev rE2 : Rect S1x1024 := Rect.unit (s := S1x1024) ![0, 0] S1x1024.size inb_S1x1024_S1x1024_0_0
abbrev rE3 : Rect S1024x1024 := Rect.unit (s := S1024x1024) ![0, 0] S1024x1024.size inb_S1024x1024_S1024x1024_0_0
abbrev rE5 : Rect S4096x1024 := Rect.unit (s := S4096x1024) ![0, 0] S4096x1024.size inb_S4096x1024_S4096x1024_0_0
abbrev rE6 : Rect S1x4096 := Rect.unit (s := S1x4096) ![0, 0] S1x4096.size inb_S1x4096_S1x4096_0_0

/-! ## What the body leaves in the output window's buffer -/

/-- The output buffer after the body, as a function of the seven input blocks: the single store's payload laid
    over the whole buffer. -/
def out0_7 (x0 : Vec F S256x4096 .f32) (x1 : Vec F S1024x4096 .bf16) (x2 : Vec F S1x1024 .f32) (x3 : Vec F S1024x1024 .bf16)
    (x4 : Vec F S1x1024 .f32) (x5 : Vec F S4096x1024 .bf16) (x6 : Vec F S1x4096 .f32) : Vec F S256x4096 .f32 :=
  View.canon [⟨rE, k0_pay1 (View.ld x0 rE) (View.ld x1 rE1) (View.ld x2 rE2) (View.ld x3 rE3) (View.ld x4 rE2) (View.ld x5 rE5) (View.ld x6 rE6)⟩]

/-- The single store's rectangle is the whole buffer, so every index lies in it. -/
theorem cover0_7 (p0 : Vec F S256x4096 .f32) (y : S256x4096.Idx) :
    ∃ pc ∈ ([⟨rE, p0⟩] : List (View.Piece (Elt F) S256x4096 .f32)), y ∈ pc.1.set :=
  View.cover_of_tiled [⟨rE, p0⟩] S256x4096.size (by rfl) y

/-! ## The body's triple -/

set_option maxHeartbeats 1000000 in
/-- Run on whole buffers, the seven inputs' reading `x0 … x6` and the output's holding anything, the body ends
    with the inputs' buffers as they were and the output's buffer reading `out0_7 x0 … x6`: it loads each input
    whole, loads the output (a value it never uses), and stores the payload over the whole output. -/
theorem sound_kernel0 (c : Dev nD) (E : Set ℕ) (i : grid0.Coords)
    (arg1 : Memref sig .tc .vmem S256x4096 .f32) (harg1 : arg1.IsWhole) (arg2 : Memref sig .tc .vmem S1024x4096 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S4096x1024 .bf16) (harg6 : arg6.IsWhole)
    (arg7 : Memref sig .tc .vmem S1x4096 .f32) (harg7 : arg7.IsWhole) (arg8 : Memref sig .tc .vmem S256x4096 .f32) (harg8 : arg8.IsWhole)
    (x0 : Vec F S256x4096 .f32) (x1 : Vec F S1024x4096 .bf16) (x2 : Vec F S1x1024 .f32) (x3 : Vec F S1024x1024 .bf16)
    (x4 : Vec F S1x1024 .f32) (x5 : Vec F S4096x1024 .bf16) (x6 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the encoder's pipeline on core `c`: each array at the contents `V` the region finds; after
    the body at point `t` every input's buffer still at its block and the output's at `out0_7` of the seven input
    blocks; the invariant that of a body touching staging buffers only; every share whole; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]

/-! ## What the body finds in each input window's buffer

An input window's buffer holds the window's block at every point, whether or not the pipeline fetched it there:
where it did not, the block index has not moved since the point before, and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

/-- What the body is handed at point `t`: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: every input's buffer reads its block, so the body's triple applies at the blocks; the
    invariant and the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KDecBody.lean ====
import proofs.«112110_j14396730376924_2_alg».proof.Proof.Gen.Kernel.Launch
import proofs.«112110_j14396730376924_2_alg».proof.Proof.Gen.Kernel.Skeleton
import proofs.«112110_j14396730376924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the decoder body, at the contents `V` the region is entered with -/

/-! ## The windows' blocks -/

/-- The block of window `w` at grid point `t`: the window's view at that point read off the array's contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each is the whole of its buffer -/

abbrev rD : Rect S128x2048 := Rect.unit (s := S128x2048) ![0, 0] S128x2048.size inb_S128x2048_S128x2048_0_0
abbrev rD2 : Rect S2048x2048 := Rect.unit (s := S2048x2048) ![0, 0] S2048x2048.size inb_S2048x2048_S2048x2048_0_0
abbrev rD6 : Rect S1x2048 := Rect.unit (s := S1x2048) ![0, 0] S1x2048.size inb_S1x2048_S1x2048_0_0

/-! ## What the body leaves in each output window's buffer -/

/-- The first output buffer after the body, from the blocks it depends on: its single store's payload laid over
    the whole buffer. -/
def out1_10 (x0 x1 : Vec F S128x2048 .f32) (x2 x3 x4 : Vec F S2048x2048 .bf16) (x6 : Vec F S1x2048 .f32) (x8 : Vec F S1x2048 .f32) :
    Vec F S128x2048 .f32 :=
  View.canon [⟨rD, k1_pay1 (k1_pay13 (View.ld x0 rD) (View.ld x1 rD) (View.ld x2 rD2) (View.ld x3 rD2) (View.ld x6 rD6)) (k1_pay15 (View.ld x4 rD2)) (View.ld x8 rD6)⟩]

/-- The second output buffer after the body, likewise. -/
def out1_11 (x0 x1 : Vec F S128x2048 .f32) (x2 x3 x5 : Vec F S2048x2048 .bf16) (x7 : Vec F S1x2048 .f32) (x9 : Vec F S1x2048 .f32) :
    Vec F S128x2048 .f32 :=
  View.canon [⟨rD, k1_pay2 (k1_pay14 (View.ld x0 rD) (View.ld x1 rD) (View.ld x2 rD2) (View.ld x3 rD2) (View.ld x7 rD6)) (View.ld x5 rD2) (View.ld x9 rD6)⟩]

/-- A store through the whole-buffer rectangle covers the buffer: every index lies in it. -/
theorem cover1 (p0 : Vec F S128x2048 .f32) (y : S128x2048.Idx) :
    ∃ pc ∈ ([⟨rD, p0⟩] : List (View.Piece (Elt F) S128x2048 .f32)), y ∈ pc.1.set :=
  View.cover_of_tiled [⟨rD, p0⟩] S128x2048.size (by rfl) y

/-! ## The body's triple -/

set_option maxHeartbeats 1000000 in
/-- Run on whole buffers, the ten inputs' reading `x0 … x9` and the two outputs' holding anything, the body ends
    with the inputs' buffers as they were and the outputs' buffers reading `out1_10` and `out1_11` of the inputs:
    it loads each input whole, and for each output in turn loads it (a value it never uses) and stores its payload
    over the whole of it. -/
theorem sound_kernel1 (c : Dev nD) (E : Set ℕ) (i : grid1.Coords)
    (arg1 : Memref sig .tc .vmem S128x2048 .f32) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .bf16) (harg4 : arg4.IsWhole)
    (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S128x2048 .f32) (harg12 : arg12.IsWhole)
    (x0 : Vec F S128x2048 .f32) (x1 : Vec F S128x2048 .f32) (x2 : Vec F S2048x2048 .bf16) (x3 : Vec F S2048x2048 .bf16) (x4 : Vec F S2048x2048 .bf16) (x5 : Vec F S2048x2048 .bf16) (x6 : Vec F S1x2048 .f32) (x7 : Vec F S1x2048 .f32) (x8 : Vec F S1x2048 .f32) (x9 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x6 x8) ∗ owns (c : Thread nD τ) arg12 fullShare (out1_11 x0 x1 x2 x3 x5 x7 x9)) -∗ K ⟨⟩))
      ⊢ wp frame (wpE (defs₀ (F := F)) Variants.none c none) E
          (cc1__decoder_kernel i arg1 harg1 arg2 harg2 arg3 harg3 arg4 harg4 arg5 harg5 arg6 harg6 arg7 harg7 arg8 harg8 arg9 harg9 arg10 harg10 arg11 harg11 arg12 harg12) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  iexists _; isplitr
  swap; · iexact H11
  ipureintro
  exact View.read_writes_eq_canon _ _ _ (cover1 _)

/-! ## The pipeline's proof data -/

/-- The proof data of the decoder's pipeline on core `c`: each array at the contents `V` the region finds; after
    the body at point `t` every input's buffer still at its block and each output's at `out1_10` / `out1_11` of the
    input blocks; the invariant that of a body touching staging buffers only; nothing owed. Windows 0 and 1 read
    two blocks of ONE array, so that array's share is dealt between them, the left half to window 0 and the right
    half to window 1; every other window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 6 t) (iblk1 V c 8 t)
    | ⟨11, _⟩ => out1_11 (iblk1 V c 0 t) (iblk1 V c 1 t) (iblk1 V c 2 t) (iblk1 V c 3 t) (iblk1 V c 5 t) (iblk1 V c 7 t) (iblk1 V c 9 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t =
    out1_10 (iblk1 V c 0 t) (iblk1 V c 1 t) (iblk1 V c 2 t) (iblk1 V c 3 t) (iblk1 V c 4 t) (iblk1 V c 6 t) (iblk1 V c 8 t) := by
  dsimp only [dat1]
theorem after1_11 (c : Dev nD) (t : Fin cfg1.N) : (dat1 V c).after 11 t =
    out1_11 (iblk1 V c 0 t) (iblk1 V c 1 t) (iblk1 V c 2 t) (iblk1 V c 3 t) (iblk1 V c 5 t) (iblk1 V c 7 t) (iblk1 V c 9 t) := by
  dsimp only [dat1]

/-! ## What the body finds in each input window's buffer

An input window's buffer holds the window's block at every point, whether or not the pipeline fetched it there:
where it did not, the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

/-! ## The body obligation, at a generic point -/

/-- What the body is handed at point `t`: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: every input's buffer reads its block, so the body's triple applies at the blocks; the
    invariant and the dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KDeal.lean ====
/-
  The second pallas_call reads ONE array, the encoder's result, through two windows: its left half of the columns
  (u) and its right half (w). The pipeline's proof data holds each window's array at a share of its own, so the
  array's full share is dealt between the two windows on entry — the left half of the share to the first, the right
  half to the second — and put together again on exit, when both windows still hold the array at one contents.
  Every other window's array is a buffer of its own at the full share.
-/
import proofs.«112110_j14396730376924_2_alg».proof.Proof.Gen.Kernel.Launch
import proofs.«112110_j14396730376924_2_alg».proof.Proof.Gen.Kernel.Skeleton
import proofs.«112110_j14396730376924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the second call's twelve windows, in window order (the shared one once). -/
abbrev arrList1 : List (Ref sig .tc) :=
  [main_v10, main_v3, main_v4, main_v5, main_v6, main_arg9, main_arg10, main_v11, main_v12, main_v13_0, main_v13_1]

/-- The share each window holds its array at: the two windows on the shared array a half each. -/
def shares1 : Fin 12 → PosShare TreeShare
  | ⟨0, _⟩ => fullShare.left
  | ⟨1, _⟩ => fullShare.right
  | _ => fullShare

/-- Those buffers at the full share, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_arg9) ↦{fullShare} V main_arg9) ∗ (((c : Thread nD τ).loc main_arg10) ↦{fullShare} V main_arg10) ∗ (((c : Thread nD τ).loc main_v11) ↦{fullShare} V main_v11) ∗ (((c : Thread nD τ).loc main_v12) ↦{fullShare} V main_v12) ∗ (((c : Thread nD τ).loc main_v13_0) ↦{fullShare} V main_v13_0) ∗ (((c : Thread nD τ).loc main_v13_1) ↦{fullShare} V main_v13_1)) := by
  unfold Pipeline.arrBufs
  exact bigSep_eq_bigSepL_of_eq arrList1 (by decide) (by decide) _

theorem shares1_0 : shares1 0 = fullShare.left := rfl
theorem shares1_1 : shares1 1 = fullShare.right := rfl
theorem shares1_2 : shares1 2 = fullShare := rfl
theorem shares1_3 : shares1 3 = fullShare := rfl
theorem shares1_4 : shares1 4 = fullShare := rfl
theorem shares1_5 : shares1 5 = fullShare := rfl
theorem shares1_6 : shares1 6 = fullShare := rfl
theorem shares1_7 : shares1 7 = fullShare := rfl
theorem shares1_8 : shares1 8 = fullShare := rfl
theorem shares1_9 : shares1 9 = fullShare := rfl
theorem shares1_10 : shares1 10 = fullShare := rfl
theorem shares1_11 : shares1 11 = fullShare := rfl

/-- The windows' arrays, each a whole buffer, as points-tos of the buffers behind them at the windows' shares. -/
theorem arrays1_eq (c : Dev nD) (dat : Dat τ (Elt F) Unit ℕ (UR sig nD τ) ℕ cfg1 c)
    (Fa : (w : Fin cfg1.W) → Buf (Elt F) ((cfg1.win w).arr.view.loc (c : Thread nD τ))) :
    dat.arrays Fa = bigSep Finset.univ fun w : Fin cfg1.W =>
      (((c : Thread nD τ).loc (Pipeline.arrRef spec1 w)) ↦{dat.share w} Fa w : sProp 𝕄) := by
  unfold Dat.arrays
  exact bigSep_congr fun w _ => by rw [(arr_whole1 w).set_eq_univ]

/-- ENTRY: the buffers behind the arrays, whole at the full share at contents `V`, make the windows' arrays at `V`,
    the shared buffer's share split between its two windows. -/
theorem deal1 (c : Dev nD) (dat : Dat τ (Elt F) Unit ℕ (UR sig nD τ) ℕ cfg1 c) (hs : ∀ w, dat.share w = shares1 w)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs (Ix := Unit) (Name := ℕ) (U := UR sig nD τ) (Lvl := ℕ) spec1 c V : sProp 𝕄) ⊢ dat.arrays Fa := by
  rw [arrBufs1_eq, arrays1_eq, bigSep_W1]
  simp only [hs, hF, shares1_0, shares1_1, shares1_2, shares1_3, shares1_4, shares1_5, shares1_6, shares1_7, shares1_8, shares1_9, shares1_10, shares1_11]
  iintro ⟨Hs, H2, H3, H4, H5, H6, H7, H8, H9, H10, H11⟩
  ihave H := (pointsTo_share (PosShare.mem_left_op_right fullShare)).1 $$ Hs
  icases H with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `V'` — the two windows on the shared buffer holding it at one contents —
    make the buffers behind them whole at the full share at `V'`, the two half shares joined. -/
theorem undeal1 (c : Dev nD) (dat : Dat τ (Elt F) Unit ℕ (UR sig nD τ) ℕ cfg1 c) (hs : ∀ w, dat.share w = shares1 w)
    (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w)) :
    dat.arrays Fa ⊢ (Pipeline.arrBufs (Ix := Unit) (Name := ℕ) (U := UR sig nD τ) (Lvl := ℕ) spec1 c V' : sProp 𝕄) := by
  rw [arrBufs1_eq, arrays1_eq, bigSep_W1]
  simp only [hs, hF, shares1_0, shares1_1, shares1_2, shares1_3, shares1_4, shares1_5, shares1_6, shares1_7, shares1_8, shares1_9, shares1_10, shares1_11]
  iintro ⟨H0, H1, H2, H3, H4, H5, H6, H7, H8, H9, H10, H11⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Hand

end
-- ==== Proof.KRun.lean ====
/-
  @main is four items: ten host operations (the seven weight matrices cast to bf16, three biases reshaped to rows), the
  encoder call, two more bias reshapes, the decoder call. Between items every unscoped buffer of a core is held whole at
  known contents: the launch memory, then each host stretch's operations applied, then — after a call — the call's
  output arrays at what its write-backs leave (the fold of the flushed blocks over the grid) and every other buffer as it
  was. The decoder reads the encoder's result through two windows (its left and right column halves), so that array's
  share is dealt between them on entry and joined on exit. The run's post says what EVERY unscoped buffer holds at the
  end; the frame and the values are both read off it.
-/
import proofs.«112110_j14396730376924_2_alg».proof.Proof.KEncBody
import proofs.«112110_j14396730376924_2_alg».proof.Proof.KDecBody
import proofs.«112110_j14396730376924_2_alg».proof.Proof.KDeal
import proofs.«112110_j14396730376924_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the encoder call's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the encoder call's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: the decoder call's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the decoder call's exit: its two output arrays at what the pipeline leaves, every other buffer as entered
    (its input arrays are never written). -/
def W4 (c : Dev nD) : Valuation τ sig (Elt F) :=
  Function.update (Function.update (W3 m ρ c) (Proc.devRef .tc main_v13_0) ((dat1 (E3 m ρ) c).arrAt 10 cfg1.N))
    (Proc.devRef .tc main_v13_1) ((dat1 (E3 m ρ) c).arrAt 11 cfg1.N)
abbrev E4 : (c : Dev nD) → (b : Ref sig .tc) → Buf (Elt F) ((c : Thread nD τ).loc b) := fun c b => W4 m ρ c b
theorem W4_v13_1 (c : Dev nD) : W4 m ρ c (Proc.devRef .tc main_v13_1) = (dat1 (E3 m ρ) c).arrAt 11 cfg1.N := by
  unfold W4; rw [Function.update_self]
theorem W4_v13_0 (c : Dev nD) : W4 m ρ c (Proc.devRef .tc main_v13_0) = (dat1 (E3 m ρ) c).arrAt 10 cfg1.N := by
  unfold W4
  rw [Function.update_of_ne (StableHlo.devRef_ne_of_ne (by decide) : (Proc.devRef .tc main_v13_0 : DevRef τ sig) ≠ Proc.devRef .tc main_v13_1),
    Function.update_self]
theorem W4_of_ne (c : Dev nD) (b : Ref sig .tc) (h : b ∉ ([main_v13_0, main_v13_1] : List (Ref sig .tc))) :
    W4 m ρ c (Proc.devRef .tc b) = W3 m ρ c (Proc.devRef .tc b) := by
  unfold W4
  rw [Function.update_of_ne (StableHlo.devRef_ne_of_ne (List.ne_of_not_mem_cons (List.not_mem_of_not_mem_cons h)) : (Proc.devRef .tc b : DevRef τ sig) ≠ Proc.devRef .tc main_v13_1),
    Function.update_of_ne (StableHlo.devRef_ne_of_ne (List.ne_of_not_mem_cons h) : (Proc.devRef .tc b : DevRef τ sig) ≠ Proc.devRef .tc main_v13_0)]

/-- The share each decoder window holds its array at (the two windows on the encoder's result a half each). -/
theorem share1 (V : (c : Dev nD) → (b : Ref sig .tc) → Buf (Elt F) ((c : Thread nD τ).loc b)) (c : Dev nD) :
    ∀ w : Fin cfg1.W, (dat1 V c).share w = shares1 w
  | ⟨0, _⟩ => rfl | ⟨1, _⟩ => rfl | ⟨2, _⟩ => rfl | ⟨3, _⟩ => rfl | ⟨4, _⟩ => rfl | ⟨5, _⟩ => rfl
  | ⟨6, _⟩ => rfl | ⟨7, _⟩ => rfl | ⟨8, _⟩ => rfl | ⟨9, _⟩ => rfl | ⟨10, _⟩ => rfl | ⟨11, _⟩ => rfl

/-- At the decoder call's exit each window's array holds what the exit contents say: an input window's array its entry
    contents (never written), an output window's what the write-backs leave. -/
theorem hF1 (c : Dev nD) : ∀ w : Fin cfg1.W, (dat1 (E3 m ρ) c).arrAt w cfg1.N = E4 m ρ c (Pipeline.arrRef spec1 w)
  | ⟨0, _⟩ => (((dat1 (E3 m ρ) c).arrAt_in 0 rfl _).trans (A_eq1 (E3 m ρ) c 0)).trans (W4_of_ne m ρ c main_v10 (by decide)).symm
  | ⟨1, _⟩ => (((dat1 (E3 m ρ) c).arrAt_in 1 rfl _).trans (A_eq1 (E3 m ρ) c 1)).trans (W4_of_ne m ρ c main_v10 (by decide)).symm
  | ⟨2, _⟩ => (((dat1 (E3 m ρ) c).arrAt_in 2 rfl _).trans (A_eq1 (E3 m ρ) c 2)).trans (W4_of_ne m ρ c main_v3 (by decide)).symm
  | ⟨3, _⟩ => (((dat1 (E3 m ρ) c).arrAt_in 3 rfl _).trans (A_eq1 (E3 m ρ) c 3)).trans (W4_of_ne m ρ c main_v4 (by decide)).symm
  | ⟨4, _⟩ => (((dat1 (E3 m ρ) c).arrAt_in 4 rfl _).trans (A_eq1 (E3 m ρ) c 4)).trans (W4_of_ne m ρ c main_v5 (by decide)).symm
  | ⟨5, _⟩ => (((dat1 (E3 m ρ) c).arrAt_in 5 rfl _).trans (A_eq1 (E3 m ρ) c 5)).trans (W4_of_ne m ρ c main_v6 (by decide)).symm
  | ⟨6, _⟩ => (((dat1 (E3 m ρ) c).arrAt_in 6 rfl _).trans (A_eq1 (E3 m ρ) c 6)).trans (W4_of_ne m ρ c main_arg9 (by decide)).symm
  | ⟨7, _⟩ => (((dat1 (E3 m ρ) c).arrAt_in 7 rfl _).trans (A_eq1 (E3 m ρ) c 7)).trans (W4_of_ne m ρ c main_arg10 (by decide)).symm
  | ⟨8, _⟩ => (((dat1 (E3 m ρ) c).arrAt_in 8 rfl _).trans (A_eq1 (E3 m ρ) c 8)).trans (W4_of_ne m ρ c main_v11 (by decide)).symm
  | ⟨9, _⟩ => (((dat1 (E3 m ρ) c).arrAt_in 9 rfl _).trans (A_eq1 (E3 m ρ) c 9)).trans (W4_of_ne m ρ c main_v12 (by decide)).symm
  | ⟨10, _⟩ => (W4_v13_0 m ρ c).symm
  | ⟨11, _⟩ => (W4_v13_1 m ρ c).symm
/-- Every buffer that is no decoder window's array is as entered. -/
theorem hrest1 (c : Dev nD) : ∀ b, b ∉ Finset.univ.image (Pipeline.arrRef spec1) → E4 m ρ c b = E3 m ρ c b :=
  fun b hb => W4_of_ne m ρ c b fun h => hb (by
    rcases List.mem_cons.mp h with rfl | h
    · exact Finset.mem_image.mpr ⟨10, Finset.mem_univ _, rfl⟩
    · rcases List.mem_cons.mp h with rfl | h
      · exact Finset.mem_image.mpr ⟨11, Finset.mem_univ _, rfl⟩
      · exact (List.not_mem_nil h).elim)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The decoder call's arrays out of the unscoped buffers and back -/

/-- A core's unscoped buffers are the distinct buffers behind the decoder's windows and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ (cfgs := cfgs) (p := (1 : Fin 2)) winFacts₀1.arr_unscoped c V

theorem enter1 (c : Dev nD) :
    (StableHlo.held (c : Thread nD τ) (Pipeline.ucRefs τ sig) (W3 m ρ c) : sProp 𝕄)
      ⊢ iprop((dat1 (E3 m ρ) c).arrays ((dat1 (E3 m ρ) c).arrAt · 0) ∗ Pipeline.unscopedRest spec1 c (E3 m ρ c)) := by
  rw [← Pipeline.unscopedBufs_held c (W3 m ρ c), split1 c (E3 m ρ c)]
  exact sep_mono (deal1 c (dat1 (E3 m ρ) c) (share1 (E3 m ρ) c) (E3 m ρ c) _ (fun w => A_eq1 (E3 m ρ) c w)) .rfl

theorem leave1 (c : Dev nD) :
    iprop((dat1 (E3 m ρ) c).arrays ((dat1 (E3 m ρ) c).arrAt · cfg1.N) ∗ Pipeline.unscopedRest spec1 c (E3 m ρ c))
      ⊢ (StableHlo.held (c : Thread nD τ) (Pipeline.ucRefs τ sig) (W4 m ρ c) : sProp 𝕄) := by
  rw [← Pipeline.unscopedBufs_held c (W4 m ρ c), split1 c (E4 m ρ c)]
  refine sep_mono (undeal1 c (dat1 (E3 m ρ) c) (share1 (E3 m ρ) c) (E4 m ρ c) _ (hF1 m ρ c)) (Entails.of_eq ?_)
  unfold Pipeline.unscopedRest
  exact bigSep_congr fun b hb => by rw [hrest1 m ρ c b (Finset.mem_sdiff.mp hb).2]

/-! ## The two calls as regions of @main -/

set_option backward.isDefEq.respectTransparency.types false in
/-- The encoder call: entered from every unscoped buffer at `W1`, left at `W2`. Its eight arrays are distinct buffers,
    each at the full share; the generator register goes into the class invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call: entered from every unscoped buffer at `W3`, left at `W4`. Two of its windows are on ONE array (the
    encoder's result): the array's share is dealt between them on entry (`enter1`) and joined on exit (`leave1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := enter1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds what the last boundary's contents `W4` say. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ (iprop(Tₙ m ρ c ∗ ∃ W, owes (c : Thread nD τ) (0 : CellTallies nD τ sig Unit) W) : sProp 𝕄)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KEntry.lean ====
/-
  What the buffers hold at the boundaries, in terms of the launch memory. No item of @main writes an argument: the host
  stretches write only their own results, the encoder call writes only its result array, the decoder call only its two.
  The encoder's input arrays at entry are the input x as launched, the three weight matrices (the cast to bf16 is the
  identity on extended reals) and the three biases as one-row matrices; the decoder's are the encoder's result, the four
  square matrices, the two given bias rows and two more biases as rows.
-/
import proofs.«112110_j14396730376924_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W4_kept (c : Dev nD) (b : Ref sig .tc) (h4 : b ∉ ([main_v13_0, main_v13_1] : List (Ref sig .tc))) (h3 : b ∉ hostOps1_W)
    (h2 : W2 m ρ c (Proc.devRef .tc b) = W1 m ρ c (Proc.devRef .tc b)) (h1 : b ∉ hostOps0_W) :
    W4 m ρ c (Proc.devRef .tc b) = m ((c : Thread nD τ).loc b) :=
  (W4_of_ne m ρ c b h4).trans <| (StableHlo.after_of_writes_sub hostOps1 _ hostOps1_writes h3).trans <| h2.trans <|
    (StableHlo.after_of_writes_sub hostOps0 _ hostOps0_writes h1).trans rfl

/-- The encoder's first window's array (the input x) is never written by the call. -/
theorem W2_arg0 (c : Dev nD) : W2 m ρ c (Proc.devRef .tc main_arg0) = W1 m ρ c (Proc.devRef .tc main_arg0) :=
  (W2_arr m ρ c 0).trans (((dat0 (E1 m ρ) c).arrAt_in 0 rfl _).trans (A_eq0 (E1 m ρ) c 0))

theorem W4_main_arg0 (c : Dev nD) : W4 m ρ c (Proc.devRef .tc main_arg0) = m ((c : Thread nD τ).loc main_arg0) :=
  W4_kept m ρ c main_arg0 (by decide) (by decide) (W2_arg0 m ρ c) (by decide)
theorem W4_main_arg1 (c : Dev nD) : W4 m ρ c (Proc.devRef .tc main_arg1) = m ((c : Thread nD τ).loc main_arg1) :=
  W4_kept m ρ c main_arg1 (by decide) (by decide) (W2_of_ne m ρ c main_arg1 (by decide)) (by decide)
theorem W4_main_arg2 (c : Dev nD) : W4 m ρ c (Proc.devRef .tc main_arg2) = m ((c : Thread nD τ).loc main_arg2) :=
  W4_kept m ρ c main_arg2 (by decide) (by decide) (W2_of_ne m ρ c main_arg2 (by decide)) (by decide)
theorem W4_main_arg3 (c : Dev nD) : W4 m ρ c (Proc.devRef .tc main_arg3) = m ((c : Thread nD τ).loc main_arg3) :=
  W4_kept m ρ c main_arg3 (by decide) (by decide) (W2_of_ne m ρ c main_arg3 (by decide)) (by decide)
theorem W4_main_arg4 (c : Dev nD) : W4 m ρ c (Proc.devRef .tc main_arg4) = m ((c : Thread nD τ).loc main_arg4) :=
  W4_kept m ρ c main_arg4 (by decide) (by decide) (W2_of_ne m ρ c main_arg4 (by decide)) (by decide)
theorem W4_main_arg5 (c : Dev nD) : W4 m ρ c (Proc.devRef .tc main_arg5) = m ((c : Thread nD τ).loc main_arg5) :=
  W4_kept m ρ c main_arg5 (by decide) (by decide) (W2_of_ne m ρ c main_arg5 (by decide)) (by decide)
theorem W4_main_arg6 (c : Dev nD) : W4 m ρ c (Proc.devRef .tc main_arg6) = m ((c : Thread nD τ).loc main_arg6) :=
  W4_kept m ρ c main_arg6 (by decide) (by decide) (W2_of_ne m ρ c main_arg6 (by decide)) (by decide)
theorem W4_main_arg7 (c : Dev nD) : W4 m ρ c (Proc.devRef .tc main_arg7) = m ((c : Thread nD τ).loc main_arg7) :=
  W4_kept m ρ c main_arg7 (by decide) (by decide) (W2_of_ne m ρ c main_arg7 (by decide)) (by decide)
theorem W4_main_arg8 (c : Dev nD) : W4 m ρ c (Proc.devRef .tc main_arg8) = m ((c : Thread nD τ).loc main_arg8) :=
  W4_kept m ρ c main_arg8 (by decide) (by decide) (W2_of_ne m ρ c main_arg8 (by decide)) (by decide)
theorem W4_main_arg9 (c : Dev nD) : W4 m ρ c (Proc.devRef .tc main_arg9) = m ((c : Thread nD τ).loc main_arg9) :=
  W4_kept m ρ c main_arg9 (by decide) (by decide) (W2_of_ne m ρ c main_arg9 (by decide)) (by decide)
theorem W4_main_arg10 (c : Dev nD) : W4 m ρ c (Proc.devRef .tc main_arg10) = m ((c : Thread nD τ).loc main_arg10) :=
  W4_kept m ρ c main_arg10 (by decide) (by decide) (W2_of_ne m ρ c main_arg10 (by decide)) (by decide)
theorem W4_main_arg11 (c : Dev nD) : W4 m ρ c (Proc.devRef .tc main_arg11) = m ((c : Thread nD τ).loc main_arg11) :=
  W4_kept m ρ c main_arg11 (by decide) (by decide) (W2_of_ne m ρ c main_arg11 (by decide)) (by decide)
theorem W4_main_arg12 (c : Dev nD) : W4 m ρ c (Proc.devRef .tc main_arg12) = m ((c : Thread nD τ).loc main_arg12) :=
  W4_kept m ρ c main_arg12 (by decide) (by decide) (W2_of_ne m ρ c main_arg12 (by decide)) (by decide)
theorem W4_main_arg13 (c : Dev nD) : W4 m ρ c (Proc.devRef .tc main_arg13) = m ((c : Thread nD τ).loc main_arg13) :=
  W4_kept m ρ c main_arg13 (by decide) (by decide) (W2_of_ne m ρ c main_arg13 (by decide)) (by decide)
theorem W4_main_arg14 (c : Dev nD) : W4 m ρ c (Proc.devRef .tc main_arg14) = m ((c : Thread nD τ).loc main_arg14) :=
  W4_kept m ρ c main_arg14 (by decide) (by decide) (W2_of_ne m ρ c main_arg14 (by decide)) (by decide)

/-- THE FRAME POST, from the run's: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩)
    (run_all m ρ)

/-- The encoder's result array is not touched after the encoder call. -/
theorem W4_v10 (c : Dev nD) : W4 m ρ c (Proc.devRef .tc main_v10) = (dat0 (E1 m ρ) c).arrAt 7 cfg0.N :=
  (W4_of_ne m ρ c main_v10 (by decide)).trans <| (StableHlo.after_of_writes_sub hostOps1 _ hostOps1_writes (by decide)).trans (W2_arr m ρ c 7)
/-- …and it is what the decoder's first two windows read. -/
theorem E3_v10 (c : Dev nD) : W3 m ρ c (Proc.devRef .tc main_v10) = (dat0 (E1 m ρ) c).arrAt 7 cfg0.N :=
  (StableHlo.after_of_writes_sub hostOps1 _ hostOps1_writes (by decide)).trans (W2_arr m ρ c 7)

end Cert.Kernel.Hand

end
-- ==== Proof.EncBody.lean ====
import proofs.«112110_j14396730376924_2_alg».proof.Proof.Gen.KernelIdeal.Launch
import proofs.«112110_j14396730376924_2_alg».proof.Proof.Gen.KernelIdeal.Skeleton
import proofs.«112110_j14396730376924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the encoder body, at the contents `V` the region is entered with -/

/-! ## The windows' blocks -/

/-- The block of window `w` at grid point `t`: the window's view at that point read off the array's contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each is the whole of its buffer -/

abbrev rE : Rect S256x4096 := Rect.unit (s := S256x4096) ![0, 0] S256x4096.size inb_S256x4096_S256x4096_0_0
abbrev rE1 : Rect S1024x4096 := Rect.unit (s := S1024x4096) ![0, 0] S1024x4096.size inb_S1024x4096_S1024x4096_0_0
abbrev rE2 : Rect S1x1024 := Rect.unit (s := S1x1024) ![0, 0] S1x1024.size inb_S1x1024_S1x1024_0_0
abbrev rE3 : Rect S1024x1024 := Rect.unit (s := S1024x1024) ![0, 0] S1024x1024.size inb_S1024x1024_S1024x1024_0_0
abbrev rE5 : Rect S4096x1024 := Rect.unit (s := S4096x1024) ![0, 0] S4096x1024.size inb_S4096x1024_S4096x1024_0_0
abbrev rE6 : Rect S1x4096 := Rect.unit (s := S1x4096) ![0, 0] S1x4096.size inb_S1x4096_S1x4096_0_0

/-! ## What the body leaves in the output window's buffer -/

/-- The output buffer after the body, as a function of the seven input blocks: the single store's payload laid
    over the whole buffer. -/
def out0_7 (x0 : Vec F S256x4096 .f32) (x1 : Vec F S1024x4096 .bf16) (x2 : Vec F S1x1024 .f32) (x3 : Vec F S1024x1024 .bf16)
    (x4 : Vec F S1x1024 .f32) (x5 : Vec F S4096x1024 .bf16) (x6 : Vec F S1x4096 .f32) : Vec F S256x4096 .f32 :=
  View.canon [⟨rE, k0_pay1 (View.ld x0 rE) (View.ld x1 rE1) (View.ld x2 rE2) (View.ld x3 rE3) (View.ld x4 rE2) (View.ld x5 rE5) (View.ld x6 rE6)⟩]

/-- The single store's rectangle is the whole buffer, so every index lies in it. -/
theorem cover0_7 (p0 : Vec F S256x4096 .f32) (y : S256x4096.Idx) :
    ∃ pc ∈ ([⟨rE, p0⟩] : List (View.Piece (Elt F) S256x4096 .f32)), y ∈ pc.1.set :=
  View.cover_of_tiled [⟨rE, p0⟩] S256x4096.size (by rfl) y

/-! ## The body's triple -/

set_option maxHeartbeats 1000000 in
/-- Run on whole buffers, the seven inputs' reading `x0 … x6` and the output's holding anything, the body ends
    with the inputs' buffers as they were and the output's buffer reading `out0_7 x0 … x6`: it loads each input
    whole, loads the output (a value it never uses), and stores the payload over the whole output. -/
theorem sound_kernel0 (c : Dev nD) (E : Set ℕ) (i : grid0.Coords)
    (arg1 : Memref sig .tc .vmem S256x4096 .f32) (harg1 : arg1.IsWhole) (arg2 : Memref sig .tc .vmem S1024x4096 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S4096x1024 .bf16) (harg6 : arg6.IsWhole)
    (arg7 : Memref sig .tc .vmem S1x4096 .f32) (harg7 : arg7.IsWhole) (arg8 : Memref sig .tc .vmem S256x4096 .f32) (harg8 : arg8.IsWhole)
    (x0 : Vec F S256x4096 .f32) (x1 : Vec F S1024x4096 .bf16) (x2 : Vec F S1x1024 .f32) (x3 : Vec F S1024x1024 .bf16)
    (x4 : Vec F S1x1024 .f32) (x5 : Vec F S4096x1024 .bf16) (x6 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the encoder's pipeline on core `c`: each array at the contents `V` the region finds; after
    the body at point `t` every input's buffer still at its block and the output's at `out0_7` of the seven input
    blocks; the invariant that of a body touching staging buffers only; every share whole; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]

/-! ## What the body finds in each input window's buffer

An input window's buffer holds the window's block at every point, whether or not the pipeline fetched it there:
where it did not, the block index has not moved since the point before, and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

/-- What the body is handed at point `t`: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: every input's buffer reads its block, so the body's triple applies at the blocks; the
    invariant and the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.DecBody.lean ====
import proofs.«112110_j14396730376924_2_alg».proof.Proof.Gen.KernelIdeal.Launch
import proofs.«112110_j14396730376924_2_alg».proof.Proof.Gen.KernelIdeal.Skeleton
import proofs.«112110_j14396730376924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the decoder body, at the contents `V` the region is entered with -/

/-! ## The windows' blocks -/

/-- The block of window `w` at grid point `t`: the window's view at that point read off the array's contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each is the whole of its buffer -/

abbrev rD : Rect S128x2048 := Rect.unit (s := S128x2048) ![0, 0] S128x2048.size inb_S128x2048_S128x2048_0_0
abbrev rD2 : Rect S2048x2048 := Rect.unit (s := S2048x2048) ![0, 0] S2048x2048.size inb_S2048x2048_S2048x2048_0_0
abbrev rD6 : Rect S1x2048 := Rect.unit (s := S1x2048) ![0, 0] S1x2048.size inb_S1x2048_S1x2048_0_0

/-! ## What the body leaves in each output window's buffer -/

/-- The first output buffer after the body, from the blocks it depends on: its single store's payload laid over
    the whole buffer. -/
def out1_10 (x0 x1 : Vec F S128x2048 .f32) (x2 x3 x4 : Vec F S2048x2048 .bf16) (x6 : Vec F S1x2048 .f32) (x8 : Vec F S1x2048 .f32) :
    Vec F S128x2048 .f32 :=
  View.canon [⟨rD, k1_pay1 (k1_pay13 (View.ld x0 rD) (View.ld x1 rD) (View.ld x2 rD2) (View.ld x3 rD2) (View.ld x6 rD6)) (k1_pay15 (View.ld x4 rD2)) (View.ld x8 rD6)⟩]

/-- The second output buffer after the body, likewise. -/
def out1_11 (x0 x1 : Vec F S128x2048 .f32) (x2 x3 x5 : Vec F S2048x2048 .bf16) (x7 : Vec F S1x2048 .f32) (x9 : Vec F S1x2048 .f32) :
    Vec F S128x2048 .f32 :=
  View.canon [⟨rD, k1_pay2 (k1_pay14 (View.ld x0 rD) (View.ld x1 rD) (View.ld x2 rD2) (View.ld x3 rD2) (View.ld x7 rD6)) (View.ld x5 rD2) (View.ld x9 rD6)⟩]

/-- A store through the whole-buffer rectangle covers the buffer: every index lies in it. -/
theorem cover1 (p0 : Vec F S128x2048 .f32) (y : S128x2048.Idx) :
    ∃ pc ∈ ([⟨rD, p0⟩] : List (View.Piece (Elt F) S128x2048 .f32)), y ∈ pc.1.set :=
  View.cover_of_tiled [⟨rD, p0⟩] S128x2048.size (by rfl) y

/-! ## The body's triple -/

set_option maxHeartbeats 1000000 in
/-- Run on whole buffers, the ten inputs' reading `x0 … x9` and the two outputs' holding anything, the body ends
    with the inputs' buffers as they were and the outputs' buffers reading `out1_10` and `out1_11` of the inputs:
    it loads each input whole, and for each output in turn loads it (a value it never uses) and stores its payload
    over the whole of it. -/
theorem sound_kernel1 (c : Dev nD) (E : Set ℕ) (i : grid1.Coords)
    (arg1 : Memref sig .tc .vmem S128x2048 .f32) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .bf16) (harg4 : arg4.IsWhole)
    (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S128x2048 .f32) (harg12 : arg12.IsWhole)
    (x0 : Vec F S128x2048 .f32) (x1 : Vec F S128x2048 .f32) (x2 : Vec F S2048x2048 .bf16) (x3 : Vec F S2048x2048 .bf16) (x4 : Vec F S2048x2048 .bf16) (x5 : Vec F S2048x2048 .bf16) (x6 : Vec F S1x2048 .f32) (x7 : Vec F S1x2048 .f32) (x8 : Vec F S1x2048 .f32) (x9 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x6 x8) ∗ owns (c : Thread nD τ) arg12 fullShare (out1_11 x0 x1 x2 x3 x5 x7 x9)) -∗ K ⟨⟩))
      ⊢ wp frame (wpE (defs₀ (F := F)) Variants.none c none) E
          (cc1__decoder_kernel i arg1 harg1 arg2 harg2 arg3 harg3 arg4 harg4 arg5 harg5 arg6 harg6 arg7 harg7 arg8 harg8 arg9 harg9 arg10 harg10 arg11 harg11 arg12 harg12) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  iexists _; isplitr
  swap; · iexact H11
  ipureintro
  exact View.read_writes_eq_canon _ _ _ (cover1 _)

/-! ## The pipeline's proof data -/

/-- The proof data of the decoder's pipeline on core `c`: each array at the contents `V` the region finds; after
    the body at point `t` every input's buffer still at its block and each output's at `out1_10` / `out1_11` of the
    input blocks; the invariant that of a body touching staging buffers only; nothing owed. Windows 0 and 1 read
    two blocks of ONE array, so that array's share is dealt between them, the left half to window 0 and the right
    half to window 1; every other window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 6 t) (iblk1 V c 8 t)
    | ⟨11, _⟩ => out1_11 (iblk1 V c 0 t) (iblk1 V c 1 t) (iblk1 V c 2 t) (iblk1 V c 3 t) (iblk1 V c 5 t) (iblk1 V c 7 t) (iblk1 V c 9 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t =
    out1_10 (iblk1 V c 0 t) (iblk1 V c 1 t) (iblk1 V c 2 t) (iblk1 V c 3 t) (iblk1 V c 4 t) (iblk1 V c 6 t) (iblk1 V c 8 t) := by
  dsimp only [dat1]
theorem after1_11 (c : Dev nD) (t : Fin cfg1.N) : (dat1 V c).after 11 t =
    out1_11 (iblk1 V c 0 t) (iblk1 V c 1 t) (iblk1 V c 2 t) (iblk1 V c 3 t) (iblk1 V c 5 t) (iblk1 V c 7 t) (iblk1 V c 9 t) := by
  dsimp only [dat1]

/-! ## What the body finds in each input window's buffer

An input window's buffer holds the window's block at every point, whether or not the pipeline fetched it there:
where it did not, the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

/-! ## The body obligation, at a generic point -/

/-- What the body is handed at point `t`: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: every input's buffer reads its block, so the body's triple applies at the blocks; the
    invariant and the dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Deal.lean ====
/-
  The second pallas_call reads ONE array, the encoder's result, through two windows: its left half of the columns
  (u) and its right half (w). The pipeline's proof data holds each window's array at a share of its own, so the
  array's full share is dealt between the two windows on entry — the left half of the share to the first, the right
  half to the second — and put together again on exit, when both windows still hold the array at one contents.
  Every other window's array is a buffer of its own at the full share.
-/
import proofs.«112110_j14396730376924_2_alg».proof.Proof.Gen.KernelIdeal.Launch
import proofs.«112110_j14396730376924_2_alg».proof.Proof.Gen.KernelIdeal.Skeleton
import proofs.«112110_j14396730376924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the second call's twelve windows, in window order (the shared one once). -/
abbrev arrList1 : List (Ref sig .tc) :=
  [main_v10, main_v3, main_v4, main_v5, main_v6, main_arg9, main_arg10, main_v11, main_v12, main_v13_0, main_v13_1]

/-- The share each window holds its array at: the two windows on the shared array a half each. -/
def shares1 : Fin 12 → PosShare TreeShare
  | ⟨0, _⟩ => fullShare.left
  | ⟨1, _⟩ => fullShare.right
  | _ => fullShare

/-- Those buffers at the full share, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_arg9) ↦{fullShare} V main_arg9) ∗ (((c : Thread nD τ).loc main_arg10) ↦{fullShare} V main_arg10) ∗ (((c : Thread nD τ).loc main_v11) ↦{fullShare} V main_v11) ∗ (((c : Thread nD τ).loc main_v12) ↦{fullShare} V main_v12) ∗ (((c : Thread nD τ).loc main_v13_0) ↦{fullShare} V main_v13_0) ∗ (((c : Thread nD τ).loc main_v13_1) ↦{fullShare} V main_v13_1)) := by
  unfold Pipeline.arrBufs
  exact bigSep_eq_bigSepL_of_eq arrList1 (by decide) (by decide) _

theorem shares1_0 : shares1 0 = fullShare.left := rfl
theorem shares1_1 : shares1 1 = fullShare.right := rfl
theorem shares1_2 : shares1 2 = fullShare := rfl
theorem shares1_3 : shares1 3 = fullShare := rfl
theorem shares1_4 : shares1 4 = fullShare := rfl
theorem shares1_5 : shares1 5 = fullShare := rfl
theorem shares1_6 : shares1 6 = fullShare := rfl
theorem shares1_7 : shares1 7 = fullShare := rfl
theorem shares1_8 : shares1 8 = fullShare := rfl
theorem shares1_9 : shares1 9 = fullShare := rfl
theorem shares1_10 : shares1 10 = fullShare := rfl
theorem shares1_11 : shares1 11 = fullShare := rfl

/-- The windows' arrays, each a whole buffer, as points-tos of the buffers behind them at the windows' shares. -/
theorem arrays1_eq (c : Dev nD) (dat : Dat τ (Elt F) Unit ℕ (UR sig nD τ) ℕ cfg1 c)
    (Fa : (w : Fin cfg1.W) → Buf (Elt F) ((cfg1.win w).arr.view.loc (c : Thread nD τ))) :
    dat.arrays Fa = bigSep Finset.univ fun w : Fin cfg1.W =>
      (((c : Thread nD τ).loc (Pipeline.arrRef spec1 w)) ↦{dat.share w} Fa w : sProp 𝕄) := by
  unfold Dat.arrays
  exact bigSep_congr fun w _ => by rw [(arr_whole1 w).set_eq_univ]

/-- ENTRY: the buffers behind the arrays, whole at the full share at contents `V`, make the windows' arrays at `V`,
    the shared buffer's share split between its two windows. -/
theorem deal1 (c : Dev nD) (dat : Dat τ (Elt F) Unit ℕ (UR sig nD τ) ℕ cfg1 c) (hs : ∀ w, dat.share w = shares1 w)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs (Ix := Unit) (Name := ℕ) (U := UR sig nD τ) (Lvl := ℕ) spec1 c V : sProp 𝕄) ⊢ dat.arrays Fa := by
  rw [arrBufs1_eq, arrays1_eq, bigSep_W1]
  simp only [hs, hF, shares1_0, shares1_1, shares1_2, shares1_3, shares1_4, shares1_5, shares1_6, shares1_7, shares1_8, shares1_9, shares1_10, shares1_11]
  iintro ⟨Hs, H2, H3, H4, H5, H6, H7, H8, H9, H10, H11⟩
  ihave H := (pointsTo_share (PosShare.mem_left_op_right fullShare)).1 $$ Hs
  icases H with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `V'` — the two windows on the shared buffer holding it at one contents —
    make the buffers behind them whole at the full share at `V'`, the two half shares joined. -/
theorem undeal1 (c : Dev nD) (dat : Dat τ (Elt F) Unit ℕ (UR sig nD τ) ℕ cfg1 c) (hs : ∀ w, dat.share w = shares1 w)
    (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w)) :
    dat.arrays Fa ⊢ (Pipeline.arrBufs (Ix := Unit) (Name := ℕ) (U := UR sig nD τ) (Lvl := ℕ) spec1 c V' : sProp 𝕄) := by
  rw [arrBufs1_eq, arrays1_eq, bigSep_W1]
  simp only [hs, hF, shares1_0, shares1_1, shares1_2, shares1_3, shares1_4, shares1_5, shares1_6, shares1_7, shares1_8, shares1_9, shares1_10, shares1_11]
  iintro ⟨H0, H1, H2, H3, H4, H5, H6, H7, H8, H9, H10, H11⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Hand

end
-- ==== Proof.Run.lean ====
/-
  @main is four items: ten host operations (the seven weight matrices cast to bf16, three biases reshaped to rows), the
  encoder call, two more bias reshapes, the decoder call. Between items every unscoped buffer of a core is held whole at
  known contents: the launch memory, then each host stretch's operations applied, then — after a call — the call's
  output arrays at what its write-backs leave (the fold of the flushed blocks over the grid) and every other buffer as it
  was. The decoder reads the encoder's result through two windows (its left and right column halves), so that array's
  share is dealt between them on entry and joined on exit. The run's post says what EVERY unscoped buffer holds at the
  end; the frame and the values are both read off it.
-/
import proofs.«112110_j14396730376924_2_alg».proof.Proof.EncBody
import proofs.«112110_j14396730376924_2_alg».proof.Proof.DecBody
import proofs.«112110_j14396730376924_2_alg».proof.Proof.Deal
import proofs.«112110_j14396730376924_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the encoder call's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the encoder call's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: the decoder call's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the decoder call's exit: its two output arrays at what the pipeline leaves, every other buffer as entered
    (its input arrays are never written). -/
def W4 (c : Dev nD) : Valuation τ sig (Elt F) :=
  Function.update (Function.update (W3 m ρ c) (Proc.devRef .tc main_v13_0) ((dat1 (E3 m ρ) c).arrAt 10 cfg1.N))
    (Proc.devRef .tc main_v13_1) ((dat1 (E3 m ρ) c).arrAt 11 cfg1.N)
abbrev E4 : (c : Dev nD) → (b : Ref sig .tc) → Buf (Elt F) ((c : Thread nD τ).loc b) := fun c b => W4 m ρ c b
theorem W4_v13_1 (c : Dev nD) : W4 m ρ c (Proc.devRef .tc main_v13_1) = (dat1 (E3 m ρ) c).arrAt 11 cfg1.N := by
  unfold W4; rw [Function.update_self]
theorem W4_v13_0 (c : Dev nD) : W4 m ρ c (Proc.devRef .tc main_v13_0) = (dat1 (E3 m ρ) c).arrAt 10 cfg1.N := by
  unfold W4
  rw [Function.update_of_ne (StableHlo.devRef_ne_of_ne (by decide) : (Proc.devRef .tc main_v13_0 : DevRef τ sig) ≠ Proc.devRef .tc main_v13_1),
    Function.update_self]
theorem W4_of_ne (c : Dev nD) (b : Ref sig .tc) (h : b ∉ ([main_v13_0, main_v13_1] : List (Ref sig .tc))) :
    W4 m ρ c (Proc.devRef .tc b) = W3 m ρ c (Proc.devRef .tc b) := by
  unfold W4
  rw [Function.update_of_ne (StableHlo.devRef_ne_of_ne (List.ne_of_not_mem_cons (List.not_mem_of_not_mem_cons h)) : (Proc.devRef .tc b : DevRef τ sig) ≠ Proc.devRef .tc main_v13_1),
    Function.update_of_ne (StableHlo.devRef_ne_of_ne (List.ne_of_not_mem_cons h) : (Proc.devRef .tc b : DevRef τ sig) ≠ Proc.devRef .tc main_v13_0)]

/-- The share each decoder window holds its array at (the two windows on the encoder's result a half each). -/
theorem share1 (V : (c : Dev nD) → (b : Ref sig .tc) → Buf (Elt F) ((c : Thread nD τ).loc b)) (c : Dev nD) :
    ∀ w : Fin cfg1.W, (dat1 V c).share w = shares1 w
  | ⟨0, _⟩ => rfl | ⟨1, _⟩ => rfl | ⟨2, _⟩ => rfl | ⟨3, _⟩ => rfl | ⟨4, _⟩ => rfl | ⟨5, _⟩ => rfl
  | ⟨6, _⟩ => rfl | ⟨7, _⟩ => rfl | ⟨8, _⟩ => rfl | ⟨9, _⟩ => rfl | ⟨10, _⟩ => rfl | ⟨11, _⟩ => rfl

/-- At the decoder call's exit each window's array holds what the exit contents say: an input window's array its entry
    contents (never written), an output window's what the write-backs leave. -/
theorem hF1 (c : Dev nD) : ∀ w : Fin cfg1.W, (dat1 (E3 m ρ) c).arrAt w cfg1.N = E4 m ρ c (Pipeline.arrRef spec1 w)
  | ⟨0, _⟩ => (((dat1 (E3 m ρ) c).arrAt_in 0 rfl _).trans (A_eq1 (E3 m ρ) c 0)).trans (W4_of_ne m ρ c main_v10 (by decide)).symm
  | ⟨1, _⟩ => (((dat1 (E3 m ρ) c).arrAt_in 1 rfl _).trans (A_eq1 (E3 m ρ) c 1)).trans (W4_of_ne m ρ c main_v10 (by decide)).symm
  | ⟨2, _⟩ => (((dat1 (E3 m ρ) c).arrAt_in 2 rfl _).trans (A_eq1 (E3 m ρ) c 2)).trans (W4_of_ne m ρ c main_v3 (by decide)).symm
  | ⟨3, _⟩ => (((dat1 (E3 m ρ) c).arrAt_in 3 rfl _).trans (A_eq1 (E3 m ρ) c 3)).trans (W4_of_ne m ρ c main_v4 (by decide)).symm
  | ⟨4, _⟩ => (((dat1 (E3 m ρ) c).arrAt_in 4 rfl _).trans (A_eq1 (E3 m ρ) c 4)).trans (W4_of_ne m ρ c main_v5 (by decide)).symm
  | ⟨5, _⟩ => (((dat1 (E3 m ρ) c).arrAt_in 5 rfl _).trans (A_eq1 (E3 m ρ) c 5)).trans (W4_of_ne m ρ c main_v6 (by decide)).symm
  | ⟨6, _⟩ => (((dat1 (E3 m ρ) c).arrAt_in 6 rfl _).trans (A_eq1 (E3 m ρ) c 6)).trans (W4_of_ne m ρ c main_arg9 (by decide)).symm
  | ⟨7, _⟩ => (((dat1 (E3 m ρ) c).arrAt_in 7 rfl _).trans (A_eq1 (E3 m ρ) c 7)).trans (W4_of_ne m ρ c main_arg10 (by decide)).symm
  | ⟨8, _⟩ => (((dat1 (E3 m ρ) c).arrAt_in 8 rfl _).trans (A_eq1 (E3 m ρ) c 8)).trans (W4_of_ne m ρ c main_v11 (by decide)).symm
  | ⟨9, _⟩ => (((dat1 (E3 m ρ) c).arrAt_in 9 rfl _).trans (A_eq1 (E3 m ρ) c 9)).trans (W4_of_ne m ρ c main_v12 (by decide)).symm
  | ⟨10, _⟩ => (W4_v13_0 m ρ c).symm
  | ⟨11, _⟩ => (W4_v13_1 m ρ c).symm
/-- Every buffer that is no decoder window's array is as entered. -/
theorem hrest1 (c : Dev nD) : ∀ b, b ∉ Finset.univ.image (Pipeline.arrRef spec1) → E4 m ρ c b = E3 m ρ c b :=
  fun b hb => W4_of_ne m ρ c b fun h => hb (by
    rcases List.mem_cons.mp h with rfl | h
    · exact Finset.mem_image.mpr ⟨10, Finset.mem_univ _, rfl⟩
    · rcases List.mem_cons.mp h with rfl | h
      · exact Finset.mem_image.mpr ⟨11, Finset.mem_univ _, rfl⟩
      · exact (List.not_mem_nil h).elim)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The decoder call's arrays out of the unscoped buffers and back -/

/-- A core's unscoped buffers are the distinct buffers behind the decoder's windows and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ (cfgs := cfgs) (p := (1 : Fin 2)) winFacts₀1.arr_unscoped c V

theorem enter1 (c : Dev nD) :
    (StableHlo.held (c : Thread nD τ) (Pipeline.ucRefs τ sig) (W3 m ρ c) : sProp 𝕄)
      ⊢ iprop((dat1 (E3 m ρ) c).arrays ((dat1 (E3 m ρ) c).arrAt · 0) ∗ Pipeline.unscopedRest spec1 c (E3 m ρ c)) := by
  rw [← Pipeline.unscopedBufs_held c (W3 m ρ c), split1 c (E3 m ρ c)]
  exact sep_mono (deal1 c (dat1 (E3 m ρ) c) (share1 (E3 m ρ) c) (E3 m ρ c) _ (fun w => A_eq1 (E3 m ρ) c w)) .rfl

theorem leave1 (c : Dev nD) :
    iprop((dat1 (E3 m ρ) c).arrays ((dat1 (E3 m ρ) c).arrAt · cfg1.N) ∗ Pipeline.unscopedRest spec1 c (E3 m ρ c))
      ⊢ (StableHlo.held (c : Thread nD τ) (Pipeline.ucRefs τ sig) (W4 m ρ c) : sProp 𝕄) := by
  rw [← Pipeline.unscopedBufs_held c (W4 m ρ c), split1 c (E4 m ρ c)]
  refine sep_mono (undeal1 c (dat1 (E3 m ρ) c) (share1 (E3 m ρ) c) (E4 m ρ c) _ (hF1 m ρ c)) (Entails.of_eq ?_)
  unfold Pipeline.unscopedRest
  exact bigSep_congr fun b hb => by rw [hrest1 m ρ c b (Finset.mem_sdiff.mp hb).2]

/-! ## The two calls as regions of @main -/

set_option backward.isDefEq.respectTransparency.types false in
/-- The encoder call: entered from every unscoped buffer at `W1`, left at `W2`. Its eight arrays are distinct buffers,
    each at the full share; the generator register goes into the class invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call: entered from every unscoped buffer at `W3`, left at `W4`. Two of its windows are on ONE array (the
    encoder's result): the array's share is dealt between them on entry (`enter1`) and joined on exit (`leave1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := enter1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds what the last boundary's contents `W4` say. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ (iprop(Tₙ m ρ c ∗ ∃ W, owes (c : Thread nD τ) (0 : CellTallies nD τ sig Unit) W) : sProp 𝕄)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Entry.lean ====
/-
  What the buffers hold at the boundaries, in terms of the launch memory. No item of @main writes an argument: the host
  stretches write only their own results, the encoder call writes only its result array, the decoder call only its two.
  The encoder's input arrays at entry are the input x as launched, the three weight matrices (the cast to bf16 is the
  identity on extended reals) and the three biases as one-row matrices; the decoder's are the encoder's result, the four
  square matrices, the two given bias rows and two more biases as rows.
-/
import proofs.«112110_j14396730376924_2_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W4_kept (c : Dev nD) (b : Ref sig .tc) (h4 : b ∉ ([main_v13_0, main_v13_1] : List (Ref sig .tc))) (h3 : b ∉ hostOps1_W)
    (h2 : W2 m ρ c (Proc.devRef .tc b) = W1 m ρ c (Proc.devRef .tc b)) (h1 : b ∉ hostOps0_W) :
    W4 m ρ c (Proc.devRef .tc b) = m ((c : Thread nD τ).loc b) :=
  (W4_of_ne m ρ c b h4).trans <| (StableHlo.after_of_writes_sub hostOps1 _ hostOps1_writes h3).trans <| h2.trans <|
    (StableHlo.after_of_writes_sub hostOps0 _ hostOps0_writes h1).trans rfl

/-- The encoder's first window's array (the input x) is never written by the call. -/
theorem W2_arg0 (c : Dev nD) : W2 m ρ c (Proc.devRef .tc main_arg0) = W1 m ρ c (Proc.devRef .tc main_arg0) :=
  (W2_arr m ρ c 0).trans (((dat0 (E1 m ρ) c).arrAt_in 0 rfl _).trans (A_eq0 (E1 m ρ) c 0))

theorem W4_main_arg0 (c : Dev nD) : W4 m ρ c (Proc.devRef .tc main_arg0) = m ((c : Thread nD τ).loc main_arg0) :=
  W4_kept m ρ c main_arg0 (by decide) (by decide) (W2_arg0 m ρ c) (by decide)
theorem W4_main_arg1 (c : Dev nD) : W4 m ρ c (Proc.devRef .tc main_arg1) = m ((c : Thread nD τ).loc main_arg1) :=
  W4_kept m ρ c main_arg1 (by decide) (by decide) (W2_of_ne m ρ c main_arg1 (by decide)) (by decide)
theorem W4_main_arg2 (c : Dev nD) : W4 m ρ c (Proc.devRef .tc main_arg2) = m ((c : Thread nD τ).loc main_arg2) :=
  W4_kept m ρ c main_arg2 (by decide) (by decide) (W2_of_ne m ρ c main_arg2 (by decide)) (by decide)
theorem W4_main_arg3 (c : Dev nD) : W4 m ρ c (Proc.devRef .tc main_arg3) = m ((c : Thread nD τ).loc main_arg3) :=
  W4_kept m ρ c main_arg3 (by decide) (by decide) (W2_of_ne m ρ c main_arg3 (by decide)) (by decide)
theorem W4_main_arg4 (c : Dev nD) : W4 m ρ c (Proc.devRef .tc main_arg4) = m ((c : Thread nD τ).loc main_arg4) :=
  W4_kept m ρ c main_arg4 (by decide) (by decide) (W2_of_ne m ρ c main_arg4 (by decide)) (by decide)
theorem W4_main_arg5 (c : Dev nD) : W4 m ρ c (Proc.devRef .tc main_arg5) = m ((c : Thread nD τ).loc main_arg5) :=
  W4_kept m ρ c main_arg5 (by decide) (by decide) (W2_of_ne m ρ c main_arg5 (by decide)) (by decide)
theorem W4_main_arg6 (c : Dev nD) : W4 m ρ c (Proc.devRef .tc main_arg6) = m ((c : Thread nD τ).loc main_arg6) :=
  W4_kept m ρ c main_arg6 (by decide) (by decide) (W2_of_ne m ρ c main_arg6 (by decide)) (by decide)
theorem W4_main_arg7 (c : Dev nD) : W4 m ρ c (Proc.devRef .tc main_arg7) = m ((c : Thread nD τ).loc main_arg7) :=
  W4_kept m ρ c main_arg7 (by decide) (by decide) (W2_of_ne m ρ c main_arg7 (by decide)) (by decide)
theorem W4_main_arg8 (c : Dev nD) : W4 m ρ c (Proc.devRef .tc main_arg8) = m ((c : Thread nD τ).loc main_arg8) :=
  W4_kept m ρ c main_arg8 (by decide) (by decide) (W2_of_ne m ρ c main_arg8 (by decide)) (by decide)
theorem W4_main_arg9 (c : Dev nD) : W4 m ρ c (Proc.devRef .tc main_arg9) = m ((c : Thread nD τ).loc main_arg9) :=
  W4_kept m ρ c main_arg9 (by decide) (by decide) (W2_of_ne m ρ c main_arg9 (by decide)) (by decide)
theorem W4_main_arg10 (c : Dev nD) : W4 m ρ c (Proc.devRef .tc main_arg10) = m ((c : Thread nD τ).loc main_arg10) :=
  W4_kept m ρ c main_arg10 (by decide) (by decide) (W2_of_ne m ρ c main_arg10 (by decide)) (by decide)
theorem W4_main_arg11 (c : Dev nD) : W4 m ρ c (Proc.devRef .tc main_arg11) = m ((c : Thread nD τ).loc main_arg11) :=
  W4_kept m ρ c main_arg11 (by decide) (by decide) (W2_of_ne m ρ c main_arg11 (by decide)) (by decide)
theorem W4_main_arg12 (c : Dev nD) : W4 m ρ c (Proc.devRef .tc main_arg12) = m ((c : Thread nD τ).loc main_arg12) :=
  W4_kept m ρ c main_arg12 (by decide) (by decide) (W2_of_ne m ρ c main_arg12 (by decide)) (by decide)
theorem W4_main_arg13 (c : Dev nD) : W4 m ρ c (Proc.devRef .tc main_arg13) = m ((c : Thread nD τ).loc main_arg13) :=
  W4_kept m ρ c main_arg13 (by decide) (by decide) (W2_of_ne m ρ c main_arg13 (by decide)) (by decide)
theorem W4_main_arg14 (c : Dev nD) : W4 m ρ c (Proc.devRef .tc main_arg14) = m ((c : Thread nD τ).loc main_arg14) :=
  W4_kept m ρ c main_arg14 (by decide) (by decide) (W2_of_ne m ρ c main_arg14 (by decide)) (by decide)

/-- THE FRAME POST, from the run's: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩)
    (run_all m ρ)

/-- The encoder's result array is not touched after the encoder call. -/
theorem W4_v10 (c : Dev nD) : W4 m ρ c (Proc.devRef .tc main_v10) = (dat0 (E1 m ρ) c).arrAt 7 cfg0.N :=
  (W4_of_ne m ρ c main_v10 (by decide)).trans <| (StableHlo.after_of_writes_sub hostOps1 _ hostOps1_writes (by decide)).trans (W2_arr m ρ c 7)
/-- …and it is what the decoder's first two windows read. -/
theorem E3_v10 (c : Dev nD) : W3 m ρ c (Proc.devRef .tc main_v10) = (dat0 (E1 m ρ) c).arrAt 7 cfg0.N :=
  (StableHlo.after_of_writes_sub hostOps1 _ hostOps1_writes (by decide)).trans (W2_arr m ρ c 7)

end Cert.KernelIdeal.Hand

end
-- ==== Proof.EntryIdeal.lean ====
/-
  At the ideal instance, what the two calls' input arrays hold when the calls are entered, in terms of the launch memory:
  a weight matrix cast to bf16 is the matrix itself (a change of float format is the identity on extended reals); a bias
  vector reshaped to a one-row matrix, read at column k of its row, is the vector at k; an argument no earlier item wrote
  is as launched; and the decoder's first two windows read the encoder's result array.
-/
import proofs.«112110_j14396730376924_2_alg».proof.Proof.Entry
import Idealize.ShloMosaic.PureOps.Ideal
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- A vector reshaped to a one-row matrix, read at column `k` of that row, is the vector at `k`. -/
theorem shapeCast_row {α : Type} {n : Nat} (v : (⟨1, ![n]⟩ : Shape).Idx → α) (h : (⟨1, ![n]⟩ : Shape).ShapeCasts ⟨2, ![1, n]⟩) (k : Fin n) :
    shapeCast (⟨2, ![1, n]⟩ : Shape) v h (ix2 (0 : Fin 1) k) = v (ix1 k) :=
  shapeCast_apply v h (ix2 (0 : Fin 1) k) (ix1 k) (by
    rw [Shape.rowMajor_val_one, Shape.rowMajor_val_two]
    show k.val = (0 : Fin 1).val * n + k.val
    simp)

/-! ## The encoder call's input arrays at entry -/

theorem E1_arg0 (c : Dev nD) : E1 m ρ c main_arg0 = m ((c : Thread nD τ).loc main_arg0) :=
  (StableHlo.after_of_writes_sub hostOps0 _ hostOps0_writes (by decide)).trans rfl
theorem E1_v0 (c : Dev nD) : (E1 m ρ c main_v0 : S1024x4096.Idx → EReal) = m ((c : Thread nD τ).loc main_arg1) := by
  show StableHlo.after hostOps0 _ (Proc.devRef .tc main_v0) = _
  after_results; rfl
theorem E1_v1 (c : Dev nD) : (E1 m ρ c main_v1 : S1024x1024.Idx → EReal) = m ((c : Thread nD τ).loc main_arg3) := by
  show StableHlo.after hostOps0 _ (Proc.devRef .tc main_v1) = _
  after_results; rfl
theorem E1_v2 (c : Dev nD) : (E1 m ρ c main_v2 : S4096x1024.Idx → EReal) = m ((c : Thread nD τ).loc main_arg5) := by
  show StableHlo.after hostOps0 _ (Proc.devRef .tc main_v2) = _
  after_results; rfl
theorem E1_v7 (c : Dev nD) (k : Fin 1024) : (E1 m ρ c main_v7 : S1x1024.Idx → EReal) (ix2 (0 : Fin 1) k) = m ((c : Thread nD τ).loc main_arg2) (ix1 k) := by
  have e : (E1 m ρ c main_v7 : S1x1024.Idx → EReal) = shapeCast S1x1024 (m ((c : Thread nD τ).loc main_arg2)) shapeCasts_S1024_S1x1024 := by
    show StableHlo.after hostOps0 _ (Proc.devRef .tc main_v7) = _
    after_results; rfl
  rw [e]; exact shapeCast_row _ _ k
theorem E1_v8 (c : Dev nD) (k : Fin 1024) : (E1 m ρ c main_v8 : S1x1024.Idx → EReal) (ix2 (0 : Fin 1) k) = m ((c : Thread nD τ).loc main_arg4) (ix1 k) := by
  have e : (E1 m ρ c main_v8 : S1x1024.Idx → EReal) = shapeCast S1x1024 (m ((c : Thread nD τ).loc main_arg4)) shapeCasts_S1024_S1x1024 := by
    show StableHlo.after hostOps0 _ (Proc.devRef .tc main_v8) = _
    after_results; rfl
  rw [e]; exact shapeCast_row _ _ k
theorem E1_v9 (c : Dev nD) (k : Fin 4096) : (E1 m ρ c main_v9 : S1x4096.Idx → EReal) (ix2 (0 : Fin 1) k) = m ((c : Thread nD τ).loc main_arg6) (ix1 k) := by
  have e : (E1 m ρ c main_v9 : S1x4096.Idx → EReal) = shapeCast S1x4096 (m ((c : Thread nD τ).loc main_arg6)) shapeCasts_S4096_S1x4096 := by
    show StableHlo.after hostOps0 _ (Proc.devRef .tc main_v9) = _
    after_results; rfl
  rw [e]; exact shapeCast_row _ _ k

/-! ## The decoder call's input arrays at entry -/

/-- A buffer the second host stretch and the encoder call leave alone holds at the decoder's entry what it held at the encoder's. -/
theorem E3_of_E1 (c : Dev nD) (b : Ref sig .tc) (h3 : b ∉ hostOps1_W) (h2 : ∀ w, Pipeline.arrRef spec0 w ≠ b) :
    W3 m ρ c (Proc.devRef .tc b) = W1 m ρ c (Proc.devRef .tc b) :=
  (StableHlo.after_of_writes_sub hostOps1 _ hostOps1_writes h3).trans (W2_of_ne m ρ c b h2)

theorem E3_v3 (c : Dev nD) : (E3 m ρ c main_v3 : S2048x2048.Idx → EReal) = m ((c : Thread nD τ).loc main_arg7) := by
  refine (E3_of_E1 m ρ c main_v3 (by decide) (by decide)).trans ?_
  show StableHlo.after hostOps0 _ (Proc.devRef .tc main_v3) = _
  after_results; rfl
theorem E3_v4 (c : Dev nD) : (E3 m ρ c main_v4 : S2048x2048.Idx → EReal) = m ((c : Thread nD τ).loc main_arg8) := by
  refine (E3_of_E1 m ρ c main_v4 (by decide) (by decide)).trans ?_
  show StableHlo.after hostOps0 _ (Proc.devRef .tc main_v4) = _
  after_results; rfl
theorem E3_v5 (c : Dev nD) : (E3 m ρ c main_v5 : S2048x2048.Idx → EReal) = m ((c : Thread nD τ).loc main_arg11) := by
  refine (E3_of_E1 m ρ c main_v5 (by decide) (by decide)).trans ?_
  show StableHlo.after hostOps0 _ (Proc.devRef .tc main_v5) = _
  after_results; rfl
theorem E3_v6 (c : Dev nD) : (E3 m ρ c main_v6 : S2048x2048.Idx → EReal) = m ((c : Thread nD τ).loc main_arg13) := by
  refine (E3_of_E1 m ρ c main_v6 (by decide) (by decide)).trans ?_
  show StableHlo.after hostOps0 _ (Proc.devRef .tc main_v6) = _
  after_results; rfl
theorem E3_arg9 (c : Dev nD) : E3 m ρ c main_arg9 = m ((c : Thread nD τ).loc main_arg9) :=
  (E3_of_E1 m ρ c main_arg9 (by decide) (by decide)).trans ((StableHlo.after_of_writes_sub hostOps0 _ hostOps0_writes (by decide)).trans rfl)
theorem E3_arg10 (c : Dev nD) : E3 m ρ c main_arg10 = m ((c : Thread nD τ).loc main_arg10) :=
  (E3_of_E1 m ρ c main_arg10 (by decide) (by decide)).trans ((StableHlo.after_of_writes_sub hostOps0 _ hostOps0_writes (by decide)).trans rfl)
/-- An argument at the encoder call's exit is as launched. -/
theorem W2_kept (c : Dev nD) (b : Ref sig .tc) (h2 : ∀ w, Pipeline.arrRef spec0 w ≠ b) (h1 : b ∉ hostOps0_W) :
    W2 m ρ c (Proc.devRef .tc b) = m ((c : Thread nD τ).loc b) :=
  (W2_of_ne m ρ c b h2).trans ((StableHlo.after_of_writes_sub hostOps0 _ hostOps0_writes h1).trans rfl)
theorem E3_v11 (c : Dev nD) (k : Fin 2048) : (E3 m ρ c main_v11 : S1x2048.Idx → EReal) (ix2 (0 : Fin 1) k) = m ((c : Thread nD τ).loc main_arg12) (ix1 k) := by
  have e : (E3 m ρ c main_v11 : S1x2048.Idx → EReal) = shapeCast S1x2048 (W2 m ρ c (Proc.devRef .tc main_arg12)) shapeCasts_S2048_S1x2048 := by
    show StableHlo.after hostOps1 _ (Proc.devRef .tc main_v11) = _
    after_results; rfl
  rw [e, W2_kept m ρ c main_arg12 (by decide) (by decide)]; exact shapeCast_row _ _ k
theorem E3_v12 (c : Dev nD) (k : Fin 2048) : (E3 m ρ c main_v12 : S1x2048.Idx → EReal) (ix2 (0 : Fin 1) k) = m ((c : Thread nD τ).loc main_arg14) (ix1 k) := by
  have e : (E3 m ρ c main_v12 : S1x2048.Idx → EReal) = shapeCast S1x2048 (W2 m ρ c (Proc.devRef .tc main_arg14)) shapeCasts_S2048_S1x2048 := by
    show StableHlo.after hostOps1 _ (Proc.devRef .tc main_v12) = _
    after_results; rfl
  rw [e, W2_kept m ρ c main_arg14 (by decide) (by decide)]; exact shapeCast_row _ _ k

end Cert.KernelIdeal.Hand

end
-- ==== Proof.Spec.lean ====
import Idealize.ShloMosaic.PureOps.Ideal
import Idealize.ShloMosaic.Lib.ValueIdx

/-!
# The three results as functions of the arguments, index by index

An encoder of three affine layers with a rectifier after the first two, then a decoder that splits the
encoder's output row into its two halves `u` and `w`, multiplies each half by the transposes of two square
matrices `G` and `Bm`, combines the four products elementwise into `p` and `q`, and applies one more affine
layer to each. Every result row depends on ONE row of the input, so the specification is stated row-wise
(`uwRow`, `poutRow`, `qoutRow`) over extended reals, and the whole-array forms (`UW`, `POUT`, `QOUT`) read
a row of the input at the result's row coordinate. The association of every sum and difference is the one
both programs use; no algebraic law is applied anywhere.
-/

noncomputable section

open scoped BigOperators

namespace Cert.Spec

open Idealize.ShloMosaic Idealize.ShloMosaic.ValueIdx

/-- A matrix of extended reals with `a` rows and `b` columns, indexed by `ix2 row column`. -/
abbrev Mat (a b : Nat) : Type := (⟨2, ![a, b]⟩ : Shape).Idx → EReal
/-- A vector of extended reals of length `n`, indexed by `ix1 position`. -/
abbrev Vec1 (n : Nat) : Type := (⟨1, ![n]⟩ : Shape).Idx → EReal

/-- The zero a rectifier compares with: the extended real the all-zero f32 word denotes. -/
def zero : EReal := Ideal.ofBits .f32 0x00000000#32

/-- A row times the transpose of a matrix: `(x · Wᵀ)[j] = Σ_k x[k] · W[j,k]`. -/
def mulT {n m : Nat} (x : Fin n → EReal) (W : Mat m n) (j : Fin m) : EReal :=
  ∑ k : Fin n, x k * W (ix2 j k)

/-- One affine layer on a row: `(x · Wᵀ + b)[j] = Σ_k x[k] · W[j,k] + b[j]`. -/
def affine {n m : Nat} (x : Fin n → EReal) (W : Mat m n) (b : Fin m → EReal) (j : Fin m) : EReal :=
  mulT x W j + b j

/-- The rectifier on a row: `max y[j] 0`. -/
def relu {m : Nat} (y : Fin m → EReal) (j : Fin m) : EReal := max (y j) zero

/-! ## The encoder, row-wise -/

/-- First hidden row: `h1[j] = max (Σ_k x[k]·Wh[j,k] + bh[j]) 0`. -/
def h1Row (xr : Fin 4096 → EReal) (Wh : Mat 1024 4096) (bh : Fin 1024 → EReal) : Fin 1024 → EReal :=
  relu (affine xr Wh bh)

/-- Second hidden row: `h2[j] = max (Σ_k h1[k]·Wh2[j,k] + bh2[j]) 0`. -/
def h2Row (xr : Fin 4096 → EReal) (Wh : Mat 1024 4096) (bh : Fin 1024 → EReal) (Wh2 : Mat 1024 1024)
    (bh2 : Fin 1024 → EReal) : Fin 1024 → EReal :=
  relu (affine (h1Row xr Wh bh) Wh2 bh2)

/-- The encoder's output row: `uw[j] = Σ_k h2[k]·Wy[j,k] + by[j]`. -/
def uwRow (xr : Fin 4096 → EReal) (Wh : Mat 1024 4096) (bh : Fin 1024 → EReal) (Wh2 : Mat 1024 1024)
    (bh2 : Fin 1024 → EReal) (Wy : Mat 4096 1024) (bv : Fin 4096 → EReal) : Fin 4096 → EReal :=
  affine (h2Row xr Wh bh Wh2 bh2) Wy bv

/-! ## The decoder, row-wise, from the two halves `u`, `w` of an encoder output row -/

/-- `p[j] = ((((u·Gu + w·Gw) + w·Bu) − u·Bw) + biasp)[j]` with `Gu = u·Gᵀ`, `Gw = w·Gᵀ`, `Bu = u·Bmᵀ`, `Bw = w·Bmᵀ`. -/
def pRow (u w : Fin 2048 → EReal) (G Bm : Mat 2048 2048) (biasp : Fin 2048 → EReal) (j : Fin 2048) : EReal :=
  (((u j * mulT u G j + w j * mulT w G j) + w j * mulT u Bm j) - u j * mulT w Bm j) + biasp j

/-- `q[j] = ((((w·Gu − u·Gw) − u·Bu) − w·Bw) + biasq)[j]`. -/
def qRow (u w : Fin 2048 → EReal) (G Bm : Mat 2048 2048) (biasq : Fin 2048 → EReal) (j : Fin 2048) : EReal :=
  (((w j * mulT u G j - u j * mulT w G j) - u j * mulT u Bm j) - w j * mulT w Bm j) + biasq j

/-- `pout[j] = Σ_k p[k]·Wp[j,k] + bp[j]`. -/
def poutRow (u w : Fin 2048 → EReal) (G Bm : Mat 2048 2048) (biasp : Fin 2048 → EReal) (Wp : Mat 2048 2048)
    (bp : Fin 2048 → EReal) : Fin 2048 → EReal :=
  affine (pRow u w G Bm biasp) Wp bp

/-- `qout[j] = Σ_k q[k]·Wq[j,k] + bq[j]`. -/
def qoutRow (u w : Fin 2048 → EReal) (G Bm : Mat 2048 2048) (biasq : Fin 2048 → EReal) (Wq : Mat 2048 2048)
    (bq : Fin 2048 → EReal) : Fin 2048 → EReal :=
  affine (qRow u w G Bm biasq) Wq bq

/-! ## The whole arrays -/

/-- Column `k` of the first half of an encoder output row. -/
def lo (k : Fin 2048) : Fin 4096 := ⟨k.val, by omega⟩
/-- Column `k` of the second half of an encoder output row: column `2048 + k`. -/
def hi (k : Fin 2048) : Fin 4096 := ⟨2048 + k.val, by omega⟩

/-- The encoder's output array: row `r` is `uwRow` of row `r` of `x`. -/
def UW (x : Mat 8192 4096) (Wh : Mat 1024 4096) (bh : Vec1 1024) (Wh2 : Mat 1024 1024) (bh2 : Vec1 1024)
    (Wy : Mat 4096 1024) (bv : Vec1 4096) : Mat 8192 4096 :=
  fun i => uwRow (fun k => x (ix2 (i 0 : Fin 8192) k)) Wh (fun j => bh (ix1 j)) Wh2 (fun j => bh2 (ix1 j)) Wy
    (fun j => bv (ix1 j)) (i 1 : Fin 4096)

/-- The decoder's first output from an encoder output array `uw`: row `r` is `poutRow` of the two halves of row `r`. -/
def poutOf (uw : Mat 8192 4096) (G Bm : Mat 2048 2048) (biasp : Mat 1 2048) (Wp : Mat 2048 2048) (bp : Vec1 2048) :
    Mat 8192 2048 :=
  fun i => poutRow (fun k => uw (ix2 (i 0 : Fin 8192) (lo k))) (fun k => uw (ix2 (i 0 : Fin 8192) (hi k))) G Bm
    (fun j => biasp (ix2 (0 : Fin 1) j)) Wp (fun j => bp (ix1 j)) (i 1 : Fin 2048)

/-- The decoder's second output from an encoder output array `uw`. -/
def qoutOf (uw : Mat 8192 4096) (G Bm : Mat 2048 2048) (biasq : Mat 1 2048) (Wq : Mat 2048 2048) (bq : Vec1 2048) :
    Mat 8192 2048 :=
  fun i => qoutRow (fun k => uw (ix2 (i 0 : Fin 8192) (lo k))) (fun k => uw (ix2 (i 0 : Fin 8192) (hi k))) G Bm
    (fun j => biasq (ix2 (0 : Fin 1) j)) Wq (fun j => bq (ix1 j)) (i 1 : Fin 2048)

/-- The first decoder output as a function of all the arguments. -/
def POUT (x : Mat 8192 4096) (Wh : Mat 1024 4096) (bh : Vec1 1024) (Wh2 : Mat 1024 1024) (bh2 : Vec1 1024)
    (Wy : Mat 4096 1024) (bv : Vec1 4096) (G Bm : Mat 2048 2048) (biasp : Mat 1 2048) (Wp : Mat 2048 2048)
    (bp : Vec1 2048) : Mat 8192 2048 :=
  poutOf (UW x Wh bh Wh2 bh2 Wy bv) G Bm biasp Wp bp

/-- The second decoder output as a function of all the arguments. -/
def QOUT (x : Mat 8192 4096) (Wh : Mat 1024 4096) (bh : Vec1 1024) (Wh2 : Mat 1024 1024) (bh2 : Vec1 1024)
    (Wy : Mat 4096 1024) (bv : Vec1 4096) (G Bm : Mat 2048 2048) (biasq : Mat 1 2048) (Wq : Mat 2048 2048)
    (bq : Vec1 2048) : Mat 8192 2048 :=
  qoutOf (UW x Wh bh Wh2 bh2 Wy bv) G Bm biasq Wq bq

/-! ## The whole arrays read at coordinates -/

theorem UW_apply (x : Mat 8192 4096) (Wh : Mat 1024 4096) (bh : Vec1 1024) (Wh2 : Mat 1024 1024) (bh2 : Vec1 1024)
    (Wy : Mat 4096 1024) (bv : Vec1 4096) (r : Fin 8192) (j : Fin 4096) :
    UW x Wh bh Wh2 bh2 Wy bv (ix2 r j) = uwRow (fun k => x (ix2 r k)) Wh (fun j => bh (ix1 j)) Wh2
      (fun j => bh2 (ix1 j)) Wy (fun j => bv (ix1 j)) j := rfl

theorem poutOf_apply (uw : Mat 8192 4096) (G Bm : Mat 2048 2048) (biasp : Mat 1 2048) (Wp : Mat 2048 2048)
    (bp : Vec1 2048) (r : Fin 8192) (j : Fin 2048) :
    poutOf uw G Bm biasp Wp bp (ix2 r j) = poutRow (fun k => uw (ix2 r (lo k))) (fun k => uw (ix2 r (hi k))) G Bm
      (fun j => biasp (ix2 (0 : Fin 1) j)) Wp (fun j => bp (ix1 j)) j := rfl

theorem qoutOf_apply (uw : Mat 8192 4096) (G Bm : Mat 2048 2048) (biasq : Mat 1 2048) (Wq : Mat 2048 2048)
    (bq : Vec1 2048) (r : Fin 8192) (j : Fin 2048) :
    qoutOf uw G Bm biasq Wq bq (ix2 r j) = qoutRow (fun k => uw (ix2 r (lo k))) (fun k => uw (ix2 r (hi k))) G Bm
      (fun j => biasq (ix2 (0 : Fin 1) j)) Wq (fun j => bq (ix1 j)) j := rfl

end Cert.Spec

end
-- ==== Proof.EncPay.lean ====
import proofs.«112110_j14396730376924_2_alg».proof.Proof.Spec
import proofs.«112110_j14396730376924_2_alg».proof.Proof.Gen.KernelIdeal.Skeleton
import Idealize.ShloMosaic.Lib.Pipeline.Value
import Idealize.ShloMosaic.Lib.ValueIdx
import Idealize.ShloMosaic.PureOps.Ideal.Laws

/-!
# The encoder kernel's stored value, at an index, is the specification's row

The value the encoder kernel stores is three matrix products into zero accumulators, each contracting the
second axis of both operands (so each is a row times a transposed matrix), a bias row broadcast along the
block's rows after each, and a maximum with the zero word after the first two. Read at row `p`, column `j` of
the block this is `Spec.uwRow` of row `p` of the input block. The changes of format between the layers are
the identity on extended reals. Only the contraction sums are re-indexed; no algebraic law is used.
-/

noncomputable section

open scoped BigOperators

namespace Cert.EncPay

open Cert.KernelIdeal Cert.KernelIdeal.Gen
open Idealize.ShloMosaic Idealize.ShloMosaic.TcCoe Idealize.SL.Sem
open Idealize.ShloMosaic.ValueIdx

/-- On the left operand's row axis the operand index of `dot_S256x4096_S1024x4096_S256x1024_1_1_0_0_n_n` is the output row. -/
theorem lhs0_enc1 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl
/-- On the right operand's row axis the operand index of `dot_S256x4096_S1024x4096_S256x1024_1_1_0_0_n_n` is the output column. -/
theorem rhs0_enc1 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl
/-- The [256,4096] × [1024,4096] matrix product into a zero accumulator, contracting both operands' second axis,
    at row `p`, column `j`: `Σ_k l[p,k] · r[j,k]`. -/
theorem mm_enc1 (l : FVec Ideal S256x4096 .bf16) (r : FVec Ideal S1024x4096 .bf16) (p : Fin 256) (j : Fin 1024) :
    matmul dot_S256x4096_S1024x4096_S256x1024_1_1_0_0_n_n none l r (constant (F := Ideal) S256x1024 .f32 0x00000000#32) (ix2 p j)
      = ∑ k : Fin 4096, l (ix2 p k) * r (ix2 j k) := by
  simp only [matmul]
  rw [Ideal.matmul_constant_zero_apply,
    ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p j) ((contrEquiv1 dot_S256x4096_S1024x4096_S256x1024_1_1_0_0_n_n 4096 rfl rfl).symm k) = ix2 p k :=
    funext fun a => Fin.ext (by
      match a with
      | ⟨0, _⟩ => exact lhs0_enc1 _ _
      | ⟨1, _⟩ => exact (dot_S256x4096_S1024x4096_S256x1024_1_1_0_0_n_n.lhsIdx_val_of_single rfl _ _).trans hk)
  have er : dot_S256x4096_S1024x4096_S256x1024_1_1_0_0_n_n.rhsIdx (ix2 p j) ((contrEquiv1 dot_S256x4096_S1024x4096_S256x1024_1_1_0_0_n_n 4096 rfl rfl).symm k) = ix2 j k :=
    funext fun a => Fin.ext (by
      match a with
      | ⟨0, _⟩ => exact rhs0_enc1 _ _
      | ⟨1, _⟩ => exact (dot_S256x4096_S1024x4096_S256x1024_1_1_0_0_n_n.rhsIdx_val_of_single rfl _ _).trans hk)
  rw [el, er]

/-- On the left operand's row axis the operand index of `dot_S256x1024_S1024x1024_S256x1024_1_1_0_0_n_n` is the output row. -/
theorem lhs0_enc2 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
/-- On the right operand's row axis the operand index of `dot_S256x1024_S1024x1024_S256x1024_1_1_0_0_n_n` is the output column. -/
theorem rhs0_enc2 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
/-- The [256,1024] × [1024,1024] matrix product into a zero accumulator, contracting both operands' second axis,
    at row `p`, column `j`: `Σ_k l[p,k] · r[j,k]`. -/
theorem mm_enc2 (l : FVec Ideal S256x1024 .bf16) (r : FVec Ideal S1024x1024 .bf16) (p : Fin 256) (j : Fin 1024) :
    matmul dot_S256x1024_S1024x1024_S256x1024_1_1_0_0_n_n none l r (constant (F := Ideal) S256x1024 .f32 0x00000000#32) (ix2 p j)
      = ∑ k : Fin 1024, l (ix2 p k) * r (ix2 j k) := by
  simp only [matmul]
  rw [Ideal.matmul_constant_zero_apply,
    ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k :=
    funext fun a => Fin.ext (by
      match a with
      | ⟨0, _⟩ => exact lhs0_enc2 _ _
      | ⟨1, _⟩ => exact (dot_S256x1024_S1024x1024_S256x1024_1_1_0_0_n_n.lhsIdx_val_of_single rfl _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k :=
    funext fun a => Fin.ext (by
      match a with
      | ⟨0, _⟩ => exact rhs0_enc2 _ _
      | ⟨1, _⟩ => exact (dot_S256x1024_S1024x1024_S256x1024_1_1_0_0_n_n.rhsIdx_val_of_single rfl _ _).trans hk)
  rw [el, er]

/-- On the left operand's row axis the operand index of `dot_S256x1024_S4096x1024_S256x4096_1_1_0_0_n_n` is the output row. -/
theorem lhs0_enc3 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
/-- On the right operand's row axis the operand index of `dot_S256x1024_S4096x1024_S256x4096_1_1_0_0_n_n` is the output column. -/
theorem rhs0_enc3 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
/-- The [256,1024] × [4096,1024] matrix product into a zero accumulator, contracting both operands' second axis,
    at row `p`, column `j`: `Σ_k l[p,k] · r[j,k]`. -/
theorem mm_enc3 (l : FVec Ideal S256x1024 .bf16) (r : FVec Ideal S4096x1024 .bf16) (p : Fin 256) (j : Fin 4096) :
    matmul dot_S256x1024_S4096x1024_S256x4096_1_1_0_0_n_n none l r (constant (F := Ideal) S256x4096 .f32 0x00000000#32) (ix2 p j)
      = ∑ k : Fin 1024, l (ix2 p k) * r (ix2 j k) := by
  simp only [matmul]
  rw [Ideal.matmul_constant_zero_apply,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k :=
    funext fun a => Fin.ext (by
      match a with
      | ⟨0, _⟩ => exact lhs0_enc3 _ _
      | ⟨1, _⟩ => exact (dot_S256x1024_S4096x1024_S256x4096_1_1_0_0_n_n.lhsIdx_val_of_single rfl _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k :=
    funext fun a => Fin.ext (by
      match a with
      | ⟨0, _⟩ => exact rhs0_enc3 _ _
      | ⟨1, _⟩ => exact (dot_S256x1024_S4096x1024_S256x4096_1_1_0_0_n_n.rhsIdx_val_of_single rfl _ _).trans hk)
  rw [el, er]

/-- A [1,1024] row broadcast along 256 rows reads the row at the column. -/
theorem bias_1024 (b : FVec Ideal S1x1024 .f32) (p : Fin 256) (j : Fin 1024) :
    broadcastTo S256x1024 b broadcasts_S1x1024_S256x1024 (ix2 p j) = b (ix2 (0 : Fin 1) j) :=
  broadcastTo_apply b broadcasts_S1x1024_S256x1024 (ix2 p j) (ix2 (0 : Fin 1) j) (fun a => match a with
    | ⟨0, _⟩ => by show 0 = if (1 : Nat) = 1 then 0 else _; rw [if_pos rfl]
    | ⟨1, _⟩ => by show j.val = if (1024 : Nat) = 1 then 0 else j.val; rw [if_neg (by decide)])

/-- A [1,4096] row broadcast along 256 rows reads the row at the column. -/
theorem bias_4096 (b : FVec Ideal S1x4096 .f32) (p : Fin 256) (j : Fin 4096) :
    broadcastTo S256x4096 b broadcasts_S1x4096_S256x4096 (ix2 p j) = b (ix2 (0 : Fin 1) j) :=
  broadcastTo_apply b broadcasts_S1x4096_S256x4096 (ix2 p j) (ix2 (0 : Fin 1) j) (fun a => match a with
    | ⟨0, _⟩ => by show 0 = if (1 : Nat) = 1 then 0 else _; rw [if_pos rfl]
    | ⟨1, _⟩ => by show j.val = if (4096 : Nat) = 1 then 0 else j.val; rw [if_neg (by decide)])

/-- THE ENCODER'S STORED VALUE AT ROW `p`, COLUMN `j` of its block: the specification's encoder row of row `p` of
    the input block `x0`, with the weight blocks `x1`, `x3`, `x5` and the bias rows `x2`, `x4`, `x6` read at
    `ix2 0 _`. -/
theorem pay_apply (x0 : Vec Ideal S256x4096 .f32) (x1 : Vec Ideal S1024x4096 .bf16) (x2 : Vec Ideal S1x1024 .f32)
    (x3 : Vec Ideal S1024x1024 .bf16) (x4 : Vec Ideal S1x1024 .f32) (x5 : Vec Ideal S4096x1024 .bf16)
    (x6 : Vec Ideal S1x4096 .f32) (p : Fin 256) (j : Fin 4096) :
    k0_pay1 (F := Ideal) x0 x1 x2 x3 x4 x5 x6 (ix2 p j)
      = Spec.uwRow (fun k => x0 (ix2 p k)) x1 (fun j => x2 (ix2 (0 : Fin 1) j)) x3
          (fun j => x4 (ix2 (0 : Fin 1) j)) x5 (fun j => x6 (ix2 (0 : Fin 1) j)) j := by
  unfold k0_pay1
  simp only [shapeCast_self, addf_apply, maximumf_apply, truncf_apply, broadcast_apply, mm_enc1, mm_enc2, mm_enc3,
    bias_1024, bias_4096]
  rfl

end Cert.EncPay

end
-- ==== Proof.EncFinal.lean ====
import proofs.«112110_j14396730376924_2_alg».proof.Proof.EncBody
import proofs.«112110_j14396730376924_2_alg».proof.Proof.EncPay
import proofs.«112110_j14396730376924_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 0: from the blocks written back to the whole result array -/

/-- The offsets of a whole-buffer rectangle are all zero. -/
theorem enc_zero_off : (![0, 0] : Fin 2 → Nat) = fun _ => 0 := funext fun a => by fin_cases a <;> rfl

/-- What the encoder's result array ends holding, as ONE function of the arrays the region is entered with: row
    `i 0` of the result is the encoder's row function of row `i 0` of the input and of the weight arrays. -/
def encG (c : Dev nD) : S8192x4096.Idx → EReal := fun i =>
  Cert.Spec.uwRow (fun k => V c main_arg0 (ix2 (i 0 : Fin 8192) k)) (V c main_v0) (fun k => V c main_v7 (ix2 (0 : Fin 1) k)) (V c main_v1)
    (fun k => V c main_v8 (ix2 (0 : Fin 1) k)) (V c main_v2) (fun k => V c main_v9 (ix2 (0 : Fin 1) k)) (i 1 : Fin 4096)

/-- The body's payload at an index of its block: the row function of that row of the input block. -/
theorem enc_pay_at (x0 : Vec Ideal S256x4096 .f32) (x1 : Vec Ideal S1024x4096 .bf16) (x2 : Vec Ideal S1x1024 .f32)
    (x3 : Vec Ideal S1024x1024 .bf16) (x4 : Vec Ideal S1x1024 .f32) (x5 : Vec Ideal S4096x1024 .bf16)
    (x6 : Vec Ideal S1x4096 .f32) (y : S256x4096.Idx) :
    k0_pay1 (F := Ideal) x0 x1 x2 x3 x4 x5 x6 y
      = Cert.Spec.uwRow (fun k => x0 (ix2 (y 0 : Fin 256) k)) x1 (fun k => x2 (ix2 (0 : Fin 1) k)) x3
          (fun k => x4 (ix2 (0 : Fin 1) k)) x5 (fun k => x6 (ix2 (0 : Fin 1) k)) (y 1 : Fin 4096) := by
  have e : y = ix2 (y 0 : Fin 256) (y 1 : Fin 4096) := eq_ix2 y
  exact (congrArg (k0_pay1 (F := Ideal) x0 x1 x2 x3 x4 x5 x6) e).trans
    (Cert.EncPay.pay_apply x0 x1 x2 x3 x4 x5 x6 (y 0 : Fin 256) (y 1 : Fin 4096))

/-- The windows' block indices, decided once over the grid: the input block and the output block are row block
    `t` of their arrays, and every other window is its whole array at every point. -/
theorem enc_idx : ∀ t : Fin cfg0.N, win0_0.index t (0 : Fin 2) = win0_7.index t (0 : Fin 2)
    ∧ win0_0.index t (1 : Fin 2) = 0 ∧ win0_7.index t (1 : Fin 2) = 0 ∧ win0_7.index t (0 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A window that is its whole array at every point reads the array itself. -/
theorem enc_blk1 (c : Dev nD) (t : Fin cfg0.N) : iblk0 V c 1 t = V c main_v0 := by
  obtain ⟨-, -, -, -, e0, e1, -⟩ := enc_idx t
  funext z
  show V c main_v0 (((cfg0.win 1).blk t).view.emb z) = V c main_v0 z
  refine congrArg _ ?_
  funext a; apply Fin.ext
  match a with
  | ⟨0, _⟩ => show win0_1.index t (0 : Fin 2) * 1024 + 1 * (z 0).val = (z 0).val; omega
  | ⟨1, _⟩ => show win0_1.index t (1 : Fin 2) * 4096 + 1 * (z 1).val = (z 1).val; omega

theorem enc_blk2 (c : Dev nD) (t : Fin cfg0.N) : iblk0 V c 2 t = V c main_v7 := by
  obtain ⟨-, -, -, -, -, -, e0, e1, -⟩ := enc_idx t
  funext z
  show V c main_v7 (((cfg0.win 2).blk t).view.emb z) = V c main_v7 z
  refine congrArg _ ?_
  funext a; apply Fin.ext
  match a with
  | ⟨0, _⟩ => show win0_2.index t (0 : Fin 2) * 1 + 1 * (z 0).val = (z 0).val; omega
  | ⟨1, _⟩ => show win0_2.index t (1 : Fin 2) * 1024 + 1 * (z 1).val = (z 1).val; omega

theorem enc_blk3 (c : Dev nD) (t : Fin cfg0.N) : iblk0 V c 3 t = V c main_v1 := by
  obtain ⟨-, -, -, -, -, -, -, -, e0, e1, -⟩ := enc_idx t
  funext z
  show V c main_v1 (((cfg0.win 3).blk t).view.emb z) = V c main_v1 z
  refine congrArg _ ?_
  funext a; apply Fin.ext
  match a with
  | ⟨0, _⟩ => show win0_3.index t (0 : Fin 2) * 1024 + 1 * (z 0).val = (z 0).val; omega
  | ⟨1, _⟩ => show win0_3.index t (1 : Fin 2) * 1024 + 1 * (z 1).val = (z 1).val; omega

theorem enc_blk4 (c : Dev nD) (t : Fin cfg0.N) : iblk0 V c 4 t = V c main_v8 := by
  obtain ⟨-, -, -, -, -, -, -, -, -, -, e0, e1, -⟩ := enc_idx t
  funext z
  show V c main_v8 (((cfg0.win 4).blk t).view.emb z) = V c main_v8 z
  refine congrArg _ ?_
  funext a; apply Fin.ext
  match a with
  | ⟨0, _⟩ => show win0_4.index t (0 : Fin 2) * 1 + 1 * (z 0).val = (z 0).val; omega
  | ⟨1, _⟩ => show win0_4.index t (1 : Fin 2) * 1024 + 1 * (z 1).val = (z 1).val; omega

theorem enc_blk5 (c : Dev nD) (t : Fin cfg0.N) : iblk0 V c 5 t = V c main_v2 := by
  obtain ⟨-, -, -, -, -, -, -, -, -, -, -, -, e0, e1, -⟩ := enc_idx t
  funext z
  show V c main_v2 (((cfg0.win 5).blk t).view.emb z) = V c main_v2 z
  refine congrArg _ ?_
  funext a; apply Fin.ext
  match a with
  | ⟨0, _⟩ => show win0_5.index t (0 : Fin 2) * 4096 + 1 * (z 0).val = (z 0).val; omega
  | ⟨1, _⟩ => show win0_5.index t (1 : Fin 2) * 1024 + 1 * (z 1).val = (z 1).val; omega

theorem enc_blk6 (c : Dev nD) (t : Fin cfg0.N) : iblk0 V c 6 t = V c main_v9 := by
  obtain ⟨-, -, -, -, -, -, -, -, -, -, -, -, -, -, e0, e1⟩ := enc_idx t
  funext z
  show V c main_v9 (((cfg0.win 6).blk t).view.emb z) = V c main_v9 z
  refine congrArg _ ?_
  funext a; apply Fin.ext
  match a with
  | ⟨0, _⟩ => show win0_6.index t (0 : Fin 2) * 1 + 1 * (z 0).val = (z 0).val; omega
  | ⟨1, _⟩ => show win0_6.index t (1 : Fin 2) * 4096 + 1 * (z 1).val = (z 1).val; omega

/-- What point `t` writes back to the result window is block `t` of `encG`: the store's payload at an index of
    the block is the row function of the input block's row there, the input block is row block `t` of the input
    array, and the result block is row block `t` of the result array. -/
theorem enc_flushed (c : Dev nD) (t : Fin cfg0.N) :
    (dat0 (F := Ideal) V c).flushed 7 t = ((cfg0.win 7).blk t).view.read (Elt Ideal) (encG V c) := by
  show (cfg0.win 7).cut (grid0.coords t) ((dat0 (F := Ideal) V c).after 7 t) = _
  rw [after0_7]
  unfold out0_7
  rw [View.canon_unit_zero enc_zero_off]
  simp only [View.ld_unit_zero (S := S256x4096) enc_zero_off, View.ld_unit_zero (S := S1024x4096) enc_zero_off,
    View.ld_unit_zero (S := S1x1024) enc_zero_off, View.ld_unit_zero (S := S1024x1024) enc_zero_off,
    View.ld_unit_zero (S := S4096x1024) enc_zero_off, View.ld_unit_zero (S := S1x4096) enc_zero_off]
  rw [enc_blk1, enc_blk2, enc_blk3, enc_blk4, enc_blk5, enc_blk6]
  obtain ⟨e0, e1, e2, e3, -⟩ := enc_idx t
  funext y
  show k0_pay1 (F := Ideal) (iblk0 V c 0 t) (V c main_v0) (V c main_v7) (V c main_v1) (V c main_v8) (V c main_v2) (V c main_v9) y
      = encG V c (((cfg0.win 7).blk t).view.emb y)
  refine (enc_pay_at (iblk0 V c 0 t) (V c main_v0) (V c main_v7) (V c main_v1) (V c main_v8) (V c main_v2) (V c main_v9) y).trans ?_
  have hrow : (fun k : Fin 4096 => iblk0 V c 0 t (ix2 (y 0 : Fin 256) k))
      = fun k : Fin 4096 => V c main_arg0 (ix2 ((((cfg0.win 7).blk t).view.emb y) 0 : Fin 8192) k) := by
    funext k
    show V c main_arg0 (((cfg0.win 0).blk t).view.emb (ix2 (y 0 : Fin 256) k)) = _
    refine congrArg _ ?_
    funext a; apply Fin.ext
    match a with
    | ⟨0, _⟩ => show win0_0.index t (0 : Fin 2) * 256 + 1 * (y 0).val = win0_7.index t (0 : Fin 2) * 256 + 1 * (y 0).val; omega
    | ⟨1, _⟩ => show win0_0.index t (1 : Fin 2) * 4096 + 1 * k.val = k.val; omega
  have hcol : (y 1 : Fin 4096) = ((((cfg0.win 7).blk t).view.emb y) 1 : Fin 4096) := by
    apply Fin.ext
    show (y 1).val = win0_7.index t (1 : Fin 2) * 4096 + 1 * (y 1).val; omega
  exact congr (congrArg (fun f => Cert.Spec.uwRow f (V c main_v0) (fun k => V c main_v7 (ix2 (0 : Fin 1) k)) (V c main_v1)
    (fun k => V c main_v8 (ix2 (0 : Fin 1) k)) (V c main_v2) (fun k => V c main_v9 (ix2 (0 : Fin 1) k))) hrow) hcol

/-- An index of the result array lies in point `t`'s block iff each coordinate lies in the block's range on its axis. -/
theorem enc_mem_blk (t : Fin cfg0.N) (i : S8192x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v10).slice (win0_7.rect t)).set ↔ _
  rw [View.set_slice_whole, Rect.mem_set_unit]
  exact Iff.rfl

/-- Every index of the result array is written back at some point: row `r` lies in row block `r / 256`. -/
theorem enc_cover (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : grid0.N = 32 := N_0
  have ht : (i 0).val / 256 < cfg0.N := by show (i 0).val / 256 < grid0.N; omega
  obtain ⟨-, -, e2, e3, -⟩ := enc_idx ⟨(i 0).val / 256, ht⟩
  refine ⟨⟨(i 0).val / 256, ht⟩, flush0_7 _, ?_⟩
  rw [enc_mem_blk]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    have e3' : win0_7.index ⟨(i 0).val / 256, ht⟩ (0 : Fin 2) = (i 0).val / 256 := e3
    omega
  | ⟨1, _⟩ =>
    show win0_7.index ⟨(i 0).val / 256, ht⟩ (1 : Fin 2) * 4096 ≤ (i 1).val
      ∧ (i 1).val < win0_7.index ⟨(i 0).val / 256, ht⟩ (1 : Fin 2) * 4096 + 4096
    omega

/-- The encoder's result array after the region, read at row `r`, column `j`: the encoder's row function of row
    `r` of the input array and of the weight arrays, all as the region is entered with them. -/
theorem enc_final (c : Dev nD) (r : Fin 8192) (j : Fin 4096) :
    (dat0 (F := Ideal) V c).arrAt 7 cfg0.N (ix2 r j)
      = Cert.Spec.uwRow (fun k => V c main_arg0 (ix2 r k)) (V c main_v0) (fun k => V c main_v7 (ix2 (0 : Fin 1) k)) (V c main_v1)
          (fun k => V c main_v8 (ix2 (0 : Fin 1) k)) (V c main_v2) (fun k => V c main_v9 (ix2 (0 : Fin 1) k)) j := by
  have h : (dat0 (F := Ideal) V c).arrAt 7 cfg0.N = encG V c :=
    (dat0 (F := Ideal) V c).arrAt_eq_of_cover 7 (encG V c) (fun t _ => enc_flushed V c t) enc_cover
  exact congrFun h (ix2 r j)

end Cert.KernelIdeal.Hand

end
-- ==== Proof.DecPay.lean ====
import proofs.«112110_j14396730376924_2_alg».proof.Proof.Spec
import proofs.«112110_j14396730376924_2_alg».proof.Proof.Gen.KernelIdeal.Skeleton
import Idealize.ShloMosaic.Lib.Pipeline.Value
import Idealize.ShloMosaic.Lib.ValueIdx
import Idealize.ShloMosaic.PureOps.Ideal.Laws

/-!
# The decoder kernel's stored values, at an index, are the specification's rows

The decoder kernel reads a block `u` and a block `w` of the encoder's output (its two column halves), forms the
four products `u·Gᵀ`, `w·Gᵀ`, `u·Bmᵀ`, `w·Bmᵀ` as matrix products into zero accumulators contracting the second
axis of both operands, combines them elementwise with `u`, `w` and a bias row into `p` and `q`, and applies one
more such product and bias row to each. Read at row `r`, column `j` of the block, the two stored values are
`Spec.poutRow` and `Spec.qoutRow` of row `r` of `u` and of `w`. The changes of format are the identity on
extended reals. Only the contraction sums are re-indexed; the sums and differences keep their association.
-/

noncomputable section

open scoped BigOperators

namespace Cert.DecPay

open Cert.KernelIdeal Cert.KernelIdeal.Gen
open Idealize.ShloMosaic Idealize.ShloMosaic.TcCoe Idealize.SL.Sem
open Idealize.ShloMosaic.ValueIdx

/-- On the left operand's row axis the operand index of `dot_S128x2048_S2048x2048_S128x2048_1_1_0_0_n_n` is the output row. -/
theorem lhs0_dec (i : S128x2048.Idx) (q : dot_S128x2048_S2048x2048_S128x2048_1_1_0_0_n_n.contr.Idx) :
    (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl
/-- On the right operand's row axis the operand index of `dot_S128x2048_S2048x2048_S128x2048_1_1_0_0_n_n` is the output column. -/
theorem rhs0_dec (i : S128x2048.Idx) (q : dot_S128x2048_S2048x2048_S128x2048_1_1_0_0_n_n.contr.Idx) :
    (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl
/-- The [128,2048] × [2048,2048] matrix product into a zero accumulator, contracting both operands' second axis,
    at row `p`, column `j`: `Σ_k l[p,k] · r[j,k]`. -/
theorem mm_dec (l : FVec Ideal S128x2048 .bf16) (r : FVec Ideal S2048x2048 .bf16) (p : Fin 128) (j : Fin 2048) :
    matmul dot_S128x2048_S2048x2048_S128x2048_1_1_0_0_n_n none l r (constant (F := Ideal) S128x2048 .f32 0x00000000#32) (ix2 p j)
      = ∑ k : Fin 2048, l (ix2 p k) * r (ix2 j k) := by
  simp only [matmul]
  rw [Ideal.matmul_constant_zero_apply,
    ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have el : dot_S128x2048_S2048x2048_S128x2048_1_1_0_0_n_n.lhsIdx (ix2 p j) ((contrEquiv1 dot_S128x2048_S2048x2048_S128x2048_1_1_0_0_n_n 2048 rfl rfl).symm k) = ix2 p k :=
    funext fun a => Fin.ext (by
      match a with
      | ⟨0, _⟩ => exact lhs0_dec _ _
      | ⟨1, _⟩ => exact (dot_S128x2048_S2048x2048_S128x2048_1_1_0_0_n_n.lhsIdx_val_of_single rfl _ _).trans hk)
  have er : dot_S128x2048_S2048x2048_S128x2048_1_1_0_0_n_n.rhsIdx (ix2 p j) ((contrEquiv1 dot_S128x2048_S2048x2048_S128x2048_1_1_0_0_n_n 2048 rfl rfl).symm k) = ix2 j k :=
    funext fun a => Fin.ext (by
      match a with
      | ⟨0, _⟩ => exact rhs0_dec _ _
      | ⟨1, _⟩ => exact (dot_S128x2048_S2048x2048_S128x2048_1_1_0_0_n_n.rhsIdx_val_of_single rfl _ _).trans hk)
  rw [el, er]

/-- A [1,2048] row broadcast along 128 rows reads the row at the column. -/
theorem bias_2048 (b : FVec Ideal S1x2048 .f32) (p : Fin 128) (j : Fin 2048) :
    broadcastTo S128x2048 b broadcasts_S1x2048_S128x2048 (ix2 p j) = b (ix2 (0 : Fin 1) j) :=
  broadcastTo_apply b broadcasts_S1x2048_S128x2048 (ix2 p j) (ix2 (0 : Fin 1) j) (fun a => match a with
    | ⟨0, _⟩ => by show 0 = if (1 : Nat) = 1 then 0 else _; rw [if_pos rfl]
    | ⟨1, _⟩ => by show j.val = if (2048 : Nat) = 1 then 0 else j.val; rw [if_neg (by decide)])

section Products
variable (u w : Vec Ideal S128x2048 .f32) (g b : Vec Ideal S2048x2048 .bf16) (r : Fin 128) (j : Fin 2048)

/-- `u · Gᵀ` at row `r`, column `j`. -/
theorem gu_apply : k1_pay9 (F := Ideal) u g (ix2 r j) = Spec.mulT (fun k => u (ix2 r k)) g j := by
  unfold k1_pay9
  simp only [k1_pay5, k1_pay3, k1_pay7, shapeCast_self, truncf_apply, mm_dec]
  rfl

/-- `w · Gᵀ` at row `r`, column `j`. -/
theorem gw_apply : k1_pay10 (F := Ideal) w g (ix2 r j) = Spec.mulT (fun k => w (ix2 r k)) g j := by
  unfold k1_pay10
  simp only [k1_pay6, k1_pay4, k1_pay7, shapeCast_self, truncf_apply, mm_dec]
  rfl

/-- `u · Bmᵀ` at row `r`, column `j`. -/
theorem bu_apply : k1_pay11 (F := Ideal) u b (ix2 r j) = Spec.mulT (fun k => u (ix2 r k)) b j := by
  unfold k1_pay11
  simp only [k1_pay5, k1_pay3, k1_pay8, shapeCast_self, truncf_apply, mm_dec]
  rfl

/-- `w · Bmᵀ` at row `r`, column `j`. -/
theorem bw_apply : k1_pay12 (F := Ideal) w b (ix2 r j) = Spec.mulT (fun k => w (ix2 r k)) b j := by
  unfold k1_pay12
  simp only [k1_pay6, k1_pay4, k1_pay8, shapeCast_self, truncf_apply, mm_dec]
  rfl

end Products

section Combinations
variable (u w : Vec Ideal S128x2048 .f32) (g b : Vec Ideal S2048x2048 .bf16) (bias : Vec Ideal S1x2048 .f32)
  (r : Fin 128) (j : Fin 2048)

/-- The first combination at row `r`, column `j`. -/
theorem pcomb_apply :
    k1_pay13 (F := Ideal) u w g b bias (ix2 r j)
      = Spec.pRow (fun k => u (ix2 r k)) (fun k => w (ix2 r k)) g b (fun j => bias (ix2 (0 : Fin 1) j)) j := by
  unfold k1_pay13
  simp only [k1_pay3, k1_pay4, shapeCast_self, truncf_apply, addf_apply, subf_apply, mulf_apply, bias_2048,
    gu_apply, gw_apply, bu_apply, bw_apply]
  rfl

/-- The second combination at row `r`, column `j`. -/
theorem qcomb_apply :
    k1_pay14 (F := Ideal) u w g b bias (ix2 r j)
      = Spec.qRow (fun k => u (ix2 r k)) (fun k => w (ix2 r k)) g b (fun j => bias (ix2 (0 : Fin 1) j)) j := by
  unfold k1_pay14
  simp only [k1_pay3, k1_pay4, shapeCast_self, truncf_apply, addf_apply, subf_apply, mulf_apply, bias_2048,
    gu_apply, gw_apply, bu_apply, bw_apply]
  rfl

end Combinations

/-- THE DECODER'S FIRST STORED VALUE AT ROW `r`, COLUMN `j` of its block: the specification's first decoder row of row
    `r` of the blocks `u` and `w`, with the matrix blocks `g`, `b`, `wp` and the bias rows `biasp`, `bp` read at
    `ix2 0 _`. -/
theorem p_apply (u w : Vec Ideal S128x2048 .f32) (g b : Vec Ideal S2048x2048 .bf16) (biasp : Vec Ideal S1x2048 .f32)
    (wp : Vec Ideal S2048x2048 .bf16) (bp : Vec Ideal S1x2048 .f32) (r : Fin 128) (j : Fin 2048) :
    k1_pay1 (F := Ideal) (k1_pay13 u w g b biasp) (k1_pay15 wp) bp (ix2 r j)
      = Spec.poutRow (fun k => u (ix2 r k)) (fun k => w (ix2 r k)) g b (fun j => biasp (ix2 (0 : Fin 1) j)) wp
          (fun j => bp (ix2 (0 : Fin 1) j)) j := by
  unfold k1_pay1
  simp only [k1_pay15, shapeCast_self, addf_apply, mm_dec, bias_2048, pcomb_apply]
  rfl

/-- THE DECODER'S SECOND STORED VALUE AT ROW `r`, COLUMN `j` of its block: the specification's second decoder row. -/
theorem q_apply (u w : Vec Ideal S128x2048 .f32) (g b : Vec Ideal S2048x2048 .bf16) (biasq : Vec Ideal S1x2048 .f32)
    (wq : Vec Ideal S2048x2048 .bf16) (bq : Vec Ideal S1x2048 .f32) (r : Fin 128) (j : Fin 2048) :
    k1_pay2 (F := Ideal) (k1_pay14 u w g b biasq) wq bq (ix2 r j)
      = Spec.qoutRow (fun k => u (ix2 r k)) (fun k => w (ix2 r k)) g b (fun j => biasq (ix2 (0 : Fin 1) j)) wq
          (fun j => bq (ix2 (0 : Fin 1) j)) j := by
  unfold k1_pay2
  simp only [shapeCast_self, addf_apply, mm_dec, bias_2048, qcomb_apply]
  rfl

end Cert.DecPay

end
-- ==== Proof.DecFinal.lean ====
import proofs.«112110_j14396730376924_2_alg».proof.Proof.DecBody
import proofs.«112110_j14396730376924_2_alg».proof.Proof.DecPay
import proofs.«112110_j14396730376924_2_alg».proof.Proof.Spec
import Idealize.ShloMosaic.Lib.Pipeline.Value

/-!
# The decoder region's two output arrays are the specification's rows of its input arrays

Each grid point `t` of the decoder region computes rows `128·t … 128·t + 127` of both outputs: its blocks `u` and `w`
are those rows of the two column halves of the encoder's output array, every other input window is its whole array
at every point, and what the point writes back is the stored value of those blocks. The stored value at a block
index is the specification's row (the payload lemmas), the block's rows sit in the array at `128·t + r`, and the 64
blocks cover all 8192 rows: so each output array, after the region, is the specification's row function of the
arrays as the region found them, at every index.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## The stored values at a point of a block, over variables -/

/-- The first stored value at index `y` of a block whose rows are rows `R …` of an array `A` (`u` its first column
    half, `w` its second): the specification's first decoder row of `A`'s row, at the array index `i` under `y`. -/
theorem point_p (A : Cert.Spec.Mat 8192 4096) (u w : Vec Ideal S128x2048 .f32) (g b : Vec Ideal S2048x2048 .bf16)
    (biasp : Vec Ideal S1x2048 .f32) (wp : Vec Ideal S2048x2048 .bf16) (bp : Vec Ideal S1x2048 .f32) (R : Nat)
    (hu : ∀ (y : S128x2048.Idx) (i : S8192x4096.Idx), (i 0).val = R + (y 0).val → (i 1).val = (y 1).val → u y = A i)
    (hw : ∀ (y : S128x2048.Idx) (i : S8192x4096.Idx), (i 0).val = R + (y 0).val → (i 1).val = 2048 + (y 1).val → w y = A i)
    (y : S128x2048.Idx) (i : S8192x2048.Idx) (h0 : (i 0).val = R + (y 0).val) (h1 : (i 1).val = (y 1).val) :
    k1_pay1 (F := Ideal) (k1_pay13 u w g b biasp) (k1_pay15 wp) bp y
      = Cert.Spec.poutRow (fun k => A (ix2 (i 0 : Fin 8192) (Cert.Spec.lo k))) (fun k => A (ix2 (i 0 : Fin 8192) (Cert.Spec.hi k)))
          g b (fun k => biasp (ix2 (0 : Fin 1) k)) wp (fun k => bp (ix2 (0 : Fin 1) k)) (i 1 : Fin 2048) := by
  obtain ⟨r, j, rfl⟩ : ∃ (r : Fin 128) (j : Fin 2048), y = ix2 r j := ⟨y 0, y 1, eq_ix2 y⟩
  have e1 : (i 1 : Fin 2048) = j := Fin.ext h1
  have eu : (fun k : Fin 2048 => u (ix2 r k)) = fun k => A (ix2 (i 0 : Fin 8192) (Cert.Spec.lo k)) :=
    funext fun k => hu (ix2 r k) (ix2 (i 0 : Fin 8192) (Cert.Spec.lo k)) h0 rfl
  have ew : (fun k : Fin 2048 => w (ix2 r k)) = fun k => A (ix2 (i 0 : Fin 8192) (Cert.Spec.hi k)) :=
    funext fun k => hw (ix2 r k) (ix2 (i 0 : Fin 8192) (Cert.Spec.hi k)) h0 rfl
  rw [Cert.DecPay.p_apply, e1, eu, ew]

/-- The second stored value likewise. -/
theorem point_q (A : Cert.Spec.Mat 8192 4096) (u w : Vec Ideal S128x2048 .f32) (g b : Vec Ideal S2048x2048 .bf16)
    (biasq : Vec Ideal S1x2048 .f32) (wq : Vec Ideal S2048x2048 .bf16) (bq : Vec Ideal S1x2048 .f32) (R : Nat)
    (hu : ∀ (y : S128x2048.Idx) (i : S8192x4096.Idx), (i 0).val = R + (y 0).val → (i 1).val = (y 1).val → u y = A i)
    (hw : ∀ (y : S128x2048.Idx) (i : S8192x4096.Idx), (i 0).val = R + (y 0).val → (i 1).val = 2048 + (y 1).val → w y = A i)
    (y : S128x2048.Idx) (i : S8192x2048.Idx) (h0 : (i 0).val = R + (y 0).val) (h1 : (i 1).val = (y 1).val) :
    k1_pay2 (F := Ideal) (k1_pay14 u w g b biasq) wq bq y
      = Cert.Spec.qoutRow (fun k => A (ix2 (i 0 : Fin 8192) (Cert.Spec.lo k))) (fun k => A (ix2 (i 0 : Fin 8192) (Cert.Spec.hi k)))
          g b (fun k => biasq (ix2 (0 : Fin 1) k)) wq (fun k => bq (ix2 (0 : Fin 1) k)) (i 1 : Fin 2048) := by
  obtain ⟨r, j, rfl⟩ : ∃ (r : Fin 128) (j : Fin 2048), y = ix2 r j := ⟨y 0, y 1, eq_ix2 y⟩
  have e1 : (i 1 : Fin 2048) = j := Fin.ext h1
  have eu : (fun k : Fin 2048 => u (ix2 r k)) = fun k => A (ix2 (i 0 : Fin 8192) (Cert.Spec.lo k)) :=
    funext fun k => hu (ix2 r k) (ix2 (i 0 : Fin 8192) (Cert.Spec.lo k)) h0 rfl
  have ew : (fun k : Fin 2048 => w (ix2 r k)) = fun k => A (ix2 (i 0 : Fin 8192) (Cert.Spec.hi k)) :=
    funext fun k => hw (ix2 r k) (ix2 (i 0 : Fin 8192) (Cert.Spec.hi k)) h0 rfl
  rw [Cert.DecPay.q_apply, e1, eu, ew]

/-! ## The index maps over the grid -/

theorem hz : (![0, 0] : Fin 2 → Nat) = fun _ => 0 := funext fun a => by fin_cases a <;> rfl

/-- The block indices of the windows that hold a whole array: zero on both axes. -/
abbrev WholeFacts (t : Fin grid1.N) : Prop :=
  ∀ a : Fin 2, win1_2.index t a = 0 ∧ win1_3.index t a = 0 ∧ win1_4.index t a = 0 ∧ win1_5.index t a = 0
    ∧ win1_6.index t a = 0 ∧ win1_7.index t a = 0 ∧ win1_8.index t a = 0 ∧ win1_9.index t a = 0

/-- The printed index maps, decided over the 64 grid points: the two outputs' row block and the blocks `u`, `w` move
    with the point; `u` is column block 0 and `w` column block 1 of the encoder's output; every other window stays
    at block zero. -/
theorem idx_facts : ∀ t : Fin cfg1.N,
    win1_10.index t (0 : Fin 2) = t.val ∧ win1_10.index t (1 : Fin 2) = 0
    ∧ win1_11.index t (0 : Fin 2) = t.val ∧ win1_11.index t (1 : Fin 2) = 0
    ∧ (win1_0.index t (0 : Fin 2) = t.val ∧ win1_0.index t (1 : Fin 2) = 0)
    ∧ (win1_1.index t (0 : Fin 2) = t.val ∧ win1_1.index t (1 : Fin 2) = 1)
    ∧ WholeFacts t :=
  (by decide +kernel : ∀ t : Fin grid1.N, _)

variable (V : (c : Dev nD) → (b : Ref sig .tc) → Buf (Elt Ideal) ((c : Thread nD τ).loc b))

/-- Window 2's block is its whole array at every point. -/
theorem iblk1_2 (c : Dev nD) (t : Fin cfg1.N) : iblk1 V c 2 t = V c main_v3 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v3 (((cfg1.win 2).blk t).view.emb y) = V c main_v3 y
  refine congrArg (V c main_v3) (funext fun a => Fin.ext ?_)
  match a with
  | ⟨0, _⟩ => show win1_2.index t (0 : Fin 2) * 2048 + 1 * (y 0).val = (y 0).val; omega
  | ⟨1, _⟩ => show win1_2.index t (1 : Fin 2) * 2048 + 1 * (y 1).val = (y 1).val; omega

/-- Window 3's block is its whole array at every point. -/
theorem iblk1_3 (c : Dev nD) (t : Fin cfg1.N) : iblk1 V c 3 t = V c main_v4 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v4 (((cfg1.win 3).blk t).view.emb y) = V c main_v4 y
  refine congrArg (V c main_v4) (funext fun a => Fin.ext ?_)
  match a with
  | ⟨0, _⟩ => show win1_3.index t (0 : Fin 2) * 2048 + 1 * (y 0).val = (y 0).val; omega
  | ⟨1, _⟩ => show win1_3.index t (1 : Fin 2) * 2048 + 1 * (y 1).val = (y 1).val; omega

/-- Window 4's block is its whole array at every point. -/
theorem iblk1_4 (c : Dev nD) (t : Fin cfg1.N) : iblk1 V c 4 t = V c main_v5 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v5 (((cfg1.win 4).blk t).view.emb y) = V c main_v5 y
  refine congrArg (V c main_v5) (funext fun a => Fin.ext ?_)
  match a with
  | ⟨0, _⟩ => show win1_4.index t (0 : Fin 2) * 2048 + 1 * (y 0).val = (y 0).val; omega
  | ⟨1, _⟩ => show win1_4.index t (1 : Fin 2) * 2048 + 1 * (y 1).val = (y 1).val; omega

/-- Window 5's block is its whole array at every point. -/
theorem iblk1_5 (c : Dev nD) (t : Fin cfg1.N) : iblk1 V c 5 t = V c main_v6 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v6 (((cfg1.win 5).blk t).view.emb y) = V c main_v6 y
  refine congrArg (V c main_v6) (funext fun a => Fin.ext ?_)
  match a with
  | ⟨0, _⟩ => show win1_5.index t (0 : Fin 2) * 2048 + 1 * (y 0).val = (y 0).val; omega
  | ⟨1, _⟩ => show win1_5.index t (1 : Fin 2) * 2048 + 1 * (y 1).val = (y 1).val; omega

/-- Window 6's block is its whole array at every point. -/
theorem iblk1_6 (c : Dev nD) (t : Fin cfg1.N) : iblk1 V c 6 t = V c main_arg9 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_arg9 (((cfg1.win 6).blk t).view.emb y) = V c main_arg9 y
  refine congrArg (V c main_arg9) (funext fun a => Fin.ext ?_)
  match a with
  | ⟨0, _⟩ => show win1_6.index t (0 : Fin 2) * 1 + 1 * (y 0).val = (y 0).val; omega
  | ⟨1, _⟩ => show win1_6.index t (1 : Fin 2) * 2048 + 1 * (y 1).val = (y 1).val; omega

/-- Window 7's block is its whole array at every point. -/
theorem iblk1_7 (c : Dev nD) (t : Fin cfg1.N) : iblk1 V c 7 t = V c main_arg10 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_arg10 (((cfg1.win 7).blk t).view.emb y) = V c main_arg10 y
  refine congrArg (V c main_arg10) (funext fun a => Fin.ext ?_)
  match a with
  | ⟨0, _⟩ => show win1_7.index t (0 : Fin 2) * 1 + 1 * (y 0).val = (y 0).val; omega
  | ⟨1, _⟩ => show win1_7.index t (1 : Fin 2) * 2048 + 1 * (y 1).val = (y 1).val; omega

/-- Window 8's block is its whole array at every point. -/
theorem iblk1_8 (c : Dev nD) (t : Fin cfg1.N) : iblk1 V c 8 t = V c main_v11 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v11 (((cfg1.win 8).blk t).view.emb y) = V c main_v11 y
  refine congrArg (V c main_v11) (funext fun a => Fin.ext ?_)
  match a with
  | ⟨0, _⟩ => show win1_8.index t (0 : Fin 2) * 1 + 1 * (y 0).val = (y 0).val; omega
  | ⟨1, _⟩ => show win1_8.index t (1 : Fin 2) * 2048 + 1 * (y 1).val = (y 1).val; omega

/-- Window 9's block is its whole array at every point. -/
theorem iblk1_9 (c : Dev nD) (t : Fin cfg1.N) : iblk1 V c 9 t = V c main_v12 := by
  obtain ⟨-, -, -, -, -, -, f⟩ := idx_facts t
  obtain ⟨a2, a3, a4, a5, a6, a7, a8, a9⟩ := f 0
  obtain ⟨b2, b3, b4, b5, b6, b7, b8, b9⟩ := f 1
  funext y
  show V c main_v12 (((cfg1.win 9).blk t).view.emb y) = V c main_v12 y
  refine congrArg (V c main_v12) (funext fun a => Fin.ext ?_)
  match a with
  | ⟨0, _⟩ => show win1_9.index t (0 : Fin 2) * 1 + 1 * (y 0).val = (y 0).val; omega
  | ⟨1, _⟩ => show win1_9.index t (1 : Fin 2) * 2048 + 1 * (y 1).val = (y 1).val; omega

/-- Block `u` at point `t` is rows `128·t …` of the first column half of the encoder's output. -/
theorem iblk1_u (c : Dev nD) (t : Fin cfg1.N) (y : S128x2048.Idx) (i : S8192x4096.Idx)
    (h0 : (i 0).val = t.val * 128 + (y 0).val) (h1 : (i 1).val = (y 1).val) : iblk1 V c 0 t y = V c main_v10 i := by
  obtain ⟨-, -, -, -, ⟨e0, e1⟩, -, -⟩ := idx_facts t
  show V c main_v10 (((cfg1.win 0).blk t).view.emb y) = V c main_v10 i
  refine congrArg (V c main_v10) (funext fun a => Fin.ext ?_)
  match a with
  | ⟨0, _⟩ => show win1_0.index t (0 : Fin 2) * 128 + 1 * (y 0).val = (i 0).val; omega
  | ⟨1, _⟩ => show win1_0.index t (1 : Fin 2) * 2048 + 1 * (y 1).val = (i 1).val; omega

/-- Block `w` at point `t` is rows `128·t …` of the second column half of the encoder's output. -/
theorem iblk1_w (c : Dev nD) (t : Fin cfg1.N) (y : S128x2048.Idx) (i : S8192x4096.Idx)
    (h0 : (i 0).val = t.val * 128 + (y 0).val) (h1 : (i 1).val = 2048 + (y 1).val) : iblk1 V c 1 t y = V c main_v10 i := by
  obtain ⟨-, -, -, -, -, ⟨e0, e1⟩, -⟩ := idx_facts t
  show V c main_v10 (((cfg1.win 1).blk t).view.emb y) = V c main_v10 i
  refine congrArg (V c main_v10) (funext fun a => Fin.ext ?_)
  match a with
  | ⟨0, _⟩ => show win1_1.index t (0 : Fin 2) * 128 + 1 * (y 0).val = (i 0).val; omega
  | ⟨1, _⟩ => show win1_1.index t (1 : Fin 2) * 2048 + 1 * (y 1).val = (i 1).val; omega

/-! ## What the region leaves in its two output arrays -/

/-- The first output array as the specification's rows of the arrays the region finds. -/
def P10 (c : Dev nD) : S8192x2048.Idx → EReal := fun i =>
  Cert.Spec.poutRow (fun k => V c main_v10 (ix2 (i 0 : Fin 8192) (Cert.Spec.lo k))) (fun k => V c main_v10 (ix2 (i 0 : Fin 8192) (Cert.Spec.hi k)))
    (V c main_v3) (V c main_v4) (fun k => V c main_arg9 (ix2 (0 : Fin 1) k)) (V c main_v5) (fun k => V c main_v11 (ix2 (0 : Fin 1) k)) (i 1 : Fin 2048)

/-- The second output array likewise. -/
def Q11 (c : Dev nD) : S8192x2048.Idx → EReal := fun i =>
  Cert.Spec.qoutRow (fun k => V c main_v10 (ix2 (i 0 : Fin 8192) (Cert.Spec.lo k))) (fun k => V c main_v10 (ix2 (i 0 : Fin 8192) (Cert.Spec.hi k)))
    (V c main_v3) (V c main_v4) (fun k => V c main_arg10 (ix2 (0 : Fin 1) k)) (V c main_v6) (fun k => V c main_v12 (ix2 (0 : Fin 1) k)) (i 1 : Fin 2048)

/-- WHAT POINT `t` WRITES BACK to the first output is block `t` of `P10`. -/
theorem flushed10_eq (c : Dev nD) (t : Fin cfg1.N) :
    (dat1 (F := Ideal) V c).flushed 10 t = ((cfg1.win 10).blk t).view.read (Elt Ideal) (P10 V c) := by
  show (cfg1.win 10).cut (grid1.coords t) ((dat1 (F := Ideal) V c).after 10 t) = _
  rw [after1_10]
  unfold out1_10
  rw [View.canon_unit_zero hz]
  simp only [View.ld_unit_zero (S := S128x2048) hz, View.ld_unit_zero (S := S2048x2048) hz, View.ld_unit_zero (S := S1x2048) hz]
  rw [iblk1_2, iblk1_3, iblk1_4, iblk1_6, iblk1_8]
  obtain ⟨e0, e1, -, -, -, -, -⟩ := idx_facts t
  funext y
  show k1_pay1 (F := Ideal) (k1_pay13 (iblk1 V c 0 t) (iblk1 V c 1 t) (V c main_v3) (V c main_v4) (V c main_arg9)) (k1_pay15 (V c main_v5)) (V c main_v11) y
    = P10 V c (((cfg1.win 10).blk t).view.emb y)
  refine point_p (V c main_v10) (iblk1 V c 0 t) (iblk1 V c 1 t) (V c main_v3) (V c main_v4) (V c main_arg9) (V c main_v5) (V c main_v11)
    (t.val * 128) (iblk1_u V c t) (iblk1_w V c t) y (((cfg1.win 10).blk t).view.emb y) ?_ ?_
  · show win1_10.index t (0 : Fin 2) * 128 + 1 * (y 0).val = t.val * 128 + (y 0).val; omega
  · show win1_10.index t (1 : Fin 2) * 2048 + 1 * (y 1).val = (y 1).val; omega

/-- WHAT POINT `t` WRITES BACK to the second output is block `t` of `Q11`. -/
theorem flushed11_eq (c : Dev nD) (t : Fin cfg1.N) :
    (dat1 (F := Ideal) V c).flushed 11 t = ((cfg1.win 11).blk t).view.read (Elt Ideal) (Q11 V c) := by
  show (cfg1.win 11).cut (grid1.coords t) ((dat1 (F := Ideal) V c).after 11 t) = _
  rw [after1_11]
  unfold out1_11
  rw [View.canon_unit_zero hz]
  simp only [View.ld_unit_zero (S := S128x2048) hz, View.ld_unit_zero (S := S2048x2048) hz, View.ld_unit_zero (S := S1x2048) hz]
  rw [iblk1_2, iblk1_3, iblk1_5, iblk1_7, iblk1_9]
  obtain ⟨-, -, e0, e1, -, -, -⟩ := idx_facts t
  funext y
  show k1_pay2 (F := Ideal) (k1_pay14 (iblk1 V c 0 t) (iblk1 V c 1 t) (V c main_v3) (V c main_v4) (V c main_arg10)) (V c main_v6) (V c main_v12) y
    = Q11 V c (((cfg1.win 11).blk t).view.emb y)
  refine point_q (V c main_v10) (iblk1 V c 0 t) (iblk1 V c 1 t) (V c main_v3) (V c main_v4) (V c main_arg10) (V c main_v6) (V c main_v12)
    (t.val * 128) (iblk1_u V c t) (iblk1_w V c t) y (((cfg1.win 11).blk t).view.emb y) ?_ ?_
  · show win1_11.index t (0 : Fin 2) * 128 + 1 * (y 0).val = t.val * 128 + (y 0).val; omega
  · show win1_11.index t (1 : Fin 2) * 2048 + 1 * (y 1).val = (y 1).val; omega

/-- An index of the first output is in point `t`'s block iff each coordinate is in the block's range on its axis. -/
theorem mem_blk10 (t : Fin cfg1.N) (i : S8192x2048.Idx) :
    i ∈ ((cfg1.win 10).blk t).view.set ↔ ∀ a : Fin 2, win1_10.index t a * S128x2048.size a ≤ (i a).val ∧ (i a).val < win1_10.index t a * S128x2048.size a + S128x2048.size a := by
  show i ∈ ((View.whole main_v13_0).slice (win1_10.rect t)).set ↔ _
  rw [View.set_slice_whole, Rect.mem_set_unit]
  exact Iff.rfl

/-- The same for the second output. -/
theorem mem_blk11 (t : Fin cfg1.N) (i : S8192x2048.Idx) :
    i ∈ ((cfg1.win 11).blk t).view.set ↔ ∀ a : Fin 2, win1_11.index t a * S128x2048.size a ≤ (i a).val ∧ (i a).val < win1_11.index t a * S128x2048.size a + S128x2048.size a := by
  show i ∈ ((View.whole main_v13_1).slice (win1_11.rect t)).set ↔ _
  rw [View.set_slice_whole, Rect.mem_set_unit]
  exact Iff.rfl

/-- Every index of the first output is in the block of the point its row falls in: point `row / 128`. -/
theorem cover10 (i : S8192x2048.Idx) :
    ∃ t : Fin cfg1.N, (cfg1.win 10).flush t = true ∧ i ∈ ((cfg1.win 10).blk t).view.set := by
  have hi0 : (i 0).val < 8192 := (i 0).isLt
  have hi1 : (i 1).val < 2048 := (i 1).isLt
  let t : Fin cfg1.N := ⟨(i 0).val / 128, by show (i 0).val / 128 < 64; omega⟩
  obtain ⟨e0, e1, -, -, -, -, -⟩ := idx_facts t
  have ht : t.val = (i 0).val / 128 := rfl
  refine ⟨t, flush1_10 t, ?_⟩
  rw [mem_blk10]
  intro a
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 2048 ≤ (i 1).val ∧ (i 1).val < win1_10.index t (1 : Fin 2) * 2048 + 2048; omega

/-- Every index of the second output likewise. -/
theorem cover11 (i : S8192x2048.Idx) :
    ∃ t : Fin cfg1.N, (cfg1.win 11).flush t = true ∧ i ∈ ((cfg1.win 11).blk t).view.set := by
  have hi0 : (i 0).val < 8192 := (i 0).isLt
  have hi1 : (i 1).val < 2048 := (i 1).isLt
  let t : Fin cfg1.N := ⟨(i 0).val / 128, by show (i 0).val / 128 < 64; omega⟩
  obtain ⟨-, -, e0, e1, -, -, -⟩ := idx_facts t
  have ht : t.val = (i 0).val / 128 := rfl
  refine ⟨t, flush1_11 t, ?_⟩
  rw [mem_blk11]
  intro a
  match a with
  | ⟨0, _⟩ => show win1_11.index t (0 : Fin 2) * 128 ≤ (i 0).val ∧ (i 0).val < win1_11.index t (0 : Fin 2) * 128 + 128; omega
  | ⟨1, _⟩ => show win1_11.index t (1 : Fin 2) * 2048 ≤ (i 1).val ∧ (i 1).val < win1_11.index t (1 : Fin 2) * 2048 + 2048; omega

/-- THE FIRST OUTPUT ARRAY after the region is `P10` of the arrays the region finds. -/
theorem final10 (c : Dev nD) : (dat1 (F := Ideal) V c).arrAt 10 cfg1.N = P10 V c :=
  (dat1 (F := Ideal) V c).arrAt_eq_of_cover 10 (P10 V c) (fun t _ => flushed10_eq V c t) cover10

/-- THE SECOND OUTPUT ARRAY after the region is `Q11` of the arrays the region finds. -/
theorem final11 (c : Dev nD) : (dat1 (F := Ideal) V c).arrAt 11 cfg1.N = Q11 V c :=
  (dat1 (F := Ideal) V c).arrAt_eq_of_cover 11 (Q11 V c) (fun t _ => flushed11_eq V c t) cover11

/-- The first output array at row `r`, column `j`. -/
theorem dec_final_p (c : Dev nD) (r : Fin 8192) (j : Fin 2048) :
    (dat1 (F := Ideal) V c).arrAt 10 cfg1.N (ix2 r j)
      = Cert.Spec.poutRow (fun k => V c main_v10 (ix2 r (Cert.Spec.lo k))) (fun k => V c main_v10 (ix2 r (Cert.Spec.hi k))) (V c main_v3) (V c main_v4)
          (fun k => V c main_arg9 (ix2 (0 : Fin 1) k)) (V c main_v5) (fun k => V c main_v11 (ix2 (0 : Fin 1) k)) j := by
  rw [final10]
  rfl

/-- The second output array at row `r`, column `j`. -/
theorem dec_final_q (c : Dev nD) (r : Fin 8192) (j : Fin 2048) :
    (dat1 (F := Ideal) V c).arrAt 11 cfg1.N (ix2 r j)
      = Cert.Spec.qoutRow (fun k => V c main_v10 (ix2 r (Cert.Spec.lo k))) (fun k => V c main_v10 (ix2 r (Cert.Spec.hi k))) (V c main_v3) (V c main_v4)
          (fun k => V c main_arg10 (ix2 (0 : Fin 1) k)) (V c main_v6) (fun k => V c main_v12 (ix2 (0 : Fin 1) k)) j := by
  rw [final11]
  rfl

end Cert.KernelIdeal.Hand

end
-- ==== Proof.Final.lean ====
/-
  The three result arrays after the run, as the specification of the arguments as launched: each call's output array is
  the row specification of the call's input arrays at entry; those are the arguments (casts the identity, biases as
  rows), and the decoder's first input is the encoder's result.
-/
import proofs.«112110_j14396730376924_2_alg».proof.Proof.EntryIdeal
import proofs.«112110_j14396730376924_2_alg».proof.Proof.Spec
import proofs.«112110_j14396730376924_2_alg».proof.Proof.EncFinal
import proofs.«112110_j14396730376924_2_alg».proof.Proof.DecFinal
import Idealize.ShloMosaic.PureOps.Ideal
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The encoder's result array after the run is the specification's encoder output of the arguments as launched. -/
theorem res_uw (c : Dev nD) : (W4 m ρ c (Proc.devRef .tc main_v10) : S8192x4096.Idx → EReal)
    = Cert.Spec.UW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W4_v10]
  funext i
  obtain ⟨r, j, rfl⟩ : ∃ (r : Fin 8192) (j : Fin 4096), i = ix2 r j := ⟨i 0, i 1, eq_ix2 i⟩
  rw [enc_final (E1 m ρ) c r j, Cert.Spec.UW_apply]
  have h0 : (fun k => E1 m ρ c main_arg0 (ix2 r k)) = fun k => (m ((c : Thread nD τ).loc main_arg0)) (ix2 r k) := by rw [E1_arg0 m ρ c]
  have h7 : (fun k => (E1 m ρ c main_v7 : S1x1024.Idx → EReal) (ix2 (0 : Fin 1) k)) = fun k => (m ((c : Thread nD τ).loc main_arg2)) (ix1 k) := funext fun k => E1_v7 m ρ c k
  have h8 : (fun k => (E1 m ρ c main_v8 : S1x1024.Idx → EReal) (ix2 (0 : Fin 1) k)) = fun k => (m ((c : Thread nD τ).loc main_arg4)) (ix1 k) := funext fun k => E1_v8 m ρ c k
  have h9 : (fun k => (E1 m ρ c main_v9 : S1x4096.Idx → EReal) (ix2 (0 : Fin 1) k)) = fun k => (m ((c : Thread nD τ).loc main_arg6)) (ix1 k) := funext fun k => E1_v9 m ρ c k
  rw [h0, h7, h8, h9, E1_v0 m ρ c, E1_v1 m ρ c, E1_v2 m ρ c]

/-- What the decoder's first two windows read is that array. -/
theorem E3_uw (c : Dev nD) : (E3 m ρ c main_v10 : S8192x4096.Idx → EReal)
    = Cert.Spec.UW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (E3_v10 m ρ c).trans ((W4_v10 m ρ c).symm.trans (res_uw m ρ c))

/-- The decoder's first result array after the run. -/
theorem res_p (c : Dev nD) : (W4 m ρ c (Proc.devRef .tc main_v13_0) : S8192x2048.Idx → EReal)
    = Cert.Spec.POUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) := by
  rw [W4_v13_0]
  funext i
  obtain ⟨r, j, rfl⟩ : ∃ (r : Fin 8192) (j : Fin 2048), i = ix2 r j := ⟨i 0, i 1, eq_ix2 i⟩
  rw [dec_final_p (E3 m ρ) c r j]
  unfold Cert.Spec.POUT
  rw [Cert.Spec.poutOf_apply]
  have h9 : (fun k => E3 m ρ c main_arg9 (ix2 (0 : Fin 1) k)) = fun k => (m ((c : Thread nD τ).loc main_arg9)) (ix2 (0 : Fin 1) k) := by rw [E3_arg9 m ρ c]
  have h11 : (fun k => (E3 m ρ c main_v11 : S1x2048.Idx → EReal) (ix2 (0 : Fin 1) k)) = fun k => (m ((c : Thread nD τ).loc main_arg12)) (ix1 k) := funext fun k => E3_v11 m ρ c k
  rw [E3_uw m ρ c, h9, h11, E3_v3 m ρ c, E3_v4 m ρ c, E3_v5 m ρ c]

/-- The decoder's second result array after the run. -/
theorem res_q (c : Dev nD) : (W4 m ρ c (Proc.devRef .tc main_v13_1) : S8192x2048.Idx → EReal)
    = Cert.Spec.QOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg13)) (m ((c : Thread nD τ).loc main_arg14)) := by
  rw [W4_v13_1]
  funext i
  obtain ⟨r, j, rfl⟩ : ∃ (r : Fin 8192) (j : Fin 2048), i = ix2 r j := ⟨i 0, i 1, eq_ix2 i⟩
  rw [dec_final_q (E3 m ρ) c r j]
  unfold Cert.Spec.QOUT
  rw [Cert.Spec.qoutOf_apply]
  have h10 : (fun k => E3 m ρ c main_arg10 (ix2 (0 : Fin 1) k)) = fun k => (m ((c : Thread nD τ).loc main_arg10)) (ix2 (0 : Fin 1) k) := by rw [E3_arg10 m ρ c]
  have h12 : (fun k => (E3 m ρ c main_v12 : S1x2048.Idx → EReal) (ix2 (0 : Fin 1) k)) = fun k => (m ((c : Thread nD τ).loc main_arg14)) (ix1 k) := funext fun k => E3_v12 m ρ c k
  rw [E3_uw m ρ c, h10, h12, E3_v3 m ρ c, E3_v4 m ρ c, E3_v6 m ρ c]

end Cert.KernelIdeal.Hand

end
-- ==== Proof.RefSpec.lean ====
import proofs.«112110_j14396730376924_2_alg».proof.Proof.Spec
import proofs.«112110_j14396730376924_2_alg».proof.Proof.Gen.ReferenceIdeal.Read

/-!
# The reference computes the specification

Each stage of the reference program, read at an index `ix2 r j`, is the corresponding row function of the
specification applied to row `r` of the input: a transpose followed by a contraction over the transposed
matrix's first axis is `Spec.mulT`, a bias broadcast along the rows reads the bias at the column, the
rectifier compares with the same zero word, and a column slice of the encoder's output reads the row at
the shifted column. Both sides are the same expression tree; only index functions are identified.
-/

noncomputable section

open scoped BigOperators

namespace Cert.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- Two rank-2 indices with the same two coordinates are equal. -/
local macro "idx2" : tactic =>
  `(tactic| (funext a; match a with | ⟨0, _⟩ => rfl | ⟨1, _⟩ => rfl))
/-- Two rank-1 indices with the same coordinate are equal. -/
local macro "idx1" : tactic =>
  `(tactic| (funext a; match a with | ⟨0, _⟩ => rfl))

/-- The contents, at the ideal values, of an f32 array of shape `S`: a function from its indices to extended reals. -/
abbrev Arr (S : Shape) : Type := (⟨S, .f32⟩ : BufTy).Contents (Elt Ideal)

section Encoder
variable (x0 : Arr S8192x4096) (x1 : Arr S1024x4096) (x2 : Arr S1024) (x3 : Arr S1024x1024) (x4 : Arr S1024)
  (x5 : Arr S4096x1024) (x6 : Arr S4096)

/-- The first rectified layer at row `r`, column `j`. -/
theorem h1_apply (r : Fin 8192) (j : Fin 1024) :
    val_main_v5 (F := Ideal) x0 x1 x2 (ix2 r j)
      = Spec.h1Row (fun k => x0 (ix2 r k)) x1 (fun j => x2 (ix1 j)) j := by
  rw [val_main_v5_apply, val_main_v4_apply, val_main_v1_apply, val_main_v3_apply, val_main_v2_apply,
    val_main_call0_v0_apply, val_main_call0_cst_apply]
  have el : ∀ k : Fin 4096, lidx_main_v1 (ix2 r j) k = ix2 r k := fun k => by idx2
  have er : ∀ k : Fin 4096, idx_main_v0 (ridx_main_v1 (ix2 r j) k) = ix2 j k := fun k => by idx2
  have eb : idx_main_v2 (idx_main_v3 (ix2 r j)) = ix1 j := by idx1
  simp only [val_main_v0_apply, el, er, eb]
  rfl

/-- The second rectified layer at row `r`, column `j`. -/
theorem h2_apply (r : Fin 8192) (j : Fin 1024) :
    val_main_v11 (F := Ideal) x0 x1 x2 x3 x4 (ix2 r j)
      = Spec.h2Row (fun k => x0 (ix2 r k)) x1 (fun j => x2 (ix1 j)) x3 (fun j => x4 (ix1 j)) j := by
  rw [val_main_v11_apply, val_main_v10_apply, val_main_v7_apply, val_main_v9_apply, val_main_v8_apply,
    val_main_call1_v0_apply, val_main_call1_cst_apply]
  have el : ∀ k : Fin 1024, lidx_main_v7 (ix2 r j) k = ix2 r k := fun k => by idx2
  have er : ∀ k : Fin 1024, idx_main_v6 (ridx_main_v7 (ix2 r j) k) = ix2 j k := fun k => by idx2
  have eb : idx_main_v8 (idx_main_v9 (ix2 r j)) = ix1 j := by idx1
  simp only [val_main_v6_apply, el, er, eb, h1_apply]
  rfl

/-- The encoder's output at row `r`, column `j`. -/
theorem uw_apply (r : Fin 8192) (j : Fin 4096) :
    val_main_v16 (F := Ideal) x0 x1 x2 x3 x4 x5 x6 (ix2 r j)
      = Spec.uwRow (fun k => x0 (ix2 r k)) x1 (fun j => x2 (ix1 j)) x3 (fun j => x4 (ix1 j)) x5
          (fun j => x6 (ix1 j)) j := by
  rw [val_main_v16_apply, val_main_v13_apply, val_main_v15_apply, val_main_v14_apply]
  have el : ∀ k : Fin 1024, lidx_main_v13 (ix2 r j) k = ix2 r k := fun k => by idx2
  have er : ∀ k : Fin 1024, idx_main_v12 (ridx_main_v13 (ix2 r j) k) = ix2 j k := fun k => by idx2
  have eb : idx_main_v14 (idx_main_v15 (ix2 r j)) = ix1 j := by idx1
  simp only [val_main_v12_apply, el, er, eb, h2_apply]
  rfl

/-- The reference's first result is the specification's encoder output. -/
theorem uw_eq :
    val_main_v16 (F := Ideal) x0 x1 x2 x3 x4 x5 x6 = Spec.UW x0 x1 x2 x3 x4 x5 x6 := by
  funext i
  obtain ⟨r, j, rfl⟩ : ∃ (r : Fin 8192) (j : Fin 4096), i = ix2 r j := ⟨i 0, i 1, eq_ix2 i⟩
  rw [uw_apply, Spec.UW_apply]

end Encoder

section Decoder
variable (x0 : Arr S8192x4096) (x1 : Arr S1024x4096) (x2 : Arr S1024) (x3 : Arr S1024x1024) (x4 : Arr S1024)
  (x5 : Arr S4096x1024) (x6 : Arr S4096) (x7 x8 : Arr S2048x2048) (x9 x10 : Arr S1x2048)
  (x11 : Arr S2048x2048) (x12 : Arr S2048) (x13 : Arr S2048x2048) (x14 : Arr S2048)

/-- The first half of the encoder's output: column `k` of `u` is column `k` of the row. -/
theorem u_apply (r : Fin 8192) (k : Fin 2048) :
    val_main_v17 (F := Ideal) x0 x1 x2 x3 x4 x5 x6 (ix2 r k)
      = Spec.uwRow (fun k => x0 (ix2 r k)) x1 (fun j => x2 (ix1 j)) x3 (fun j => x4 (ix1 j)) x5
          (fun j => x6 (ix1 j)) (Spec.lo k) := by
  have e : idx_main_v17 (ix2 r k) = ix2 r (Spec.lo k) := by idx2
  rw [val_main_v17_apply, e, uw_apply]

/-- The second half of the encoder's output: column `k` of `w` is column `2048 + k` of the row. -/
theorem w_apply (r : Fin 8192) (k : Fin 2048) :
    val_main_v18 (F := Ideal) x0 x1 x2 x3 x4 x5 x6 (ix2 r k)
      = Spec.uwRow (fun k => x0 (ix2 r k)) x1 (fun j => x2 (ix1 j)) x3 (fun j => x4 (ix1 j)) x5
          (fun j => x6 (ix1 j)) (Spec.hi k) := by
  have e : idx_main_v18 (ix2 r k) = ix2 r (Spec.hi k) := by idx2
  rw [val_main_v18_apply, e, uw_apply]

/-- `u · Gᵀ`. -/
theorem gu_apply (r : Fin 8192) (j : Fin 2048) :
    val_main_v20 (F := Ideal) x0 x1 x2 x3 x4 x5 x6 x7 (ix2 r j)
      = Spec.mulT (fun k => Spec.uwRow (fun k => x0 (ix2 r k)) x1 (fun j => x2 (ix1 j)) x3 (fun j => x4 (ix1 j)) x5
          (fun j => x6 (ix1 j)) (Spec.lo k)) x7 j := by
  have el : ∀ k : Fin 2048, lidx_main_v20 (ix2 r j) k = ix2 r k := fun k => by idx2
  have er : ∀ k : Fin 2048, idx_main_v19 (ridx_main_v20 (ix2 r j) k) = ix2 j k := fun k => by idx2
  rw [val_main_v20_apply]
  simp only [val_main_v19_apply, el, er, u_apply]
  rfl

/-- `w · Gᵀ`. -/
theorem gw_apply (r : Fin 8192) (j : Fin 2048) :
    val_main_v22 (F := Ideal) x0 x1 x2 x3 x4 x5 x6 x7 (ix2 r j)
      = Spec.mulT (fun k => Spec.uwRow (fun k => x0 (ix2 r k)) x1 (fun j => x2 (ix1 j)) x3 (fun j => x4 (ix1 j)) x5
          (fun j => x6 (ix1 j)) (Spec.hi k)) x7 j := by
  have el : ∀ k : Fin 2048, lidx_main_v22 (ix2 r j) k = ix2 r k := fun k => by idx2
  have er : ∀ k : Fin 2048, idx_main_v21 (ridx_main_v22 (ix2 r j) k) = ix2 j k := fun k => by idx2
  rw [val_main_v22_apply]
  simp only [val_main_v21_apply, el, er, w_apply]
  rfl

/-- `u · Bmᵀ`. -/
theorem bu_apply (r : Fin 8192) (j : Fin 2048) :
    val_main_v24 (F := Ideal) x0 x1 x2 x3 x4 x5 x6 x8 (ix2 r j)
      = Spec.mulT (fun k => Spec.uwRow (fun k => x0 (ix2 r k)) x1 (fun j => x2 (ix1 j)) x3 (fun j => x4 (ix1 j)) x5
          (fun j => x6 (ix1 j)) (Spec.lo k)) x8 j := by
  have el : ∀ k : Fin 2048, lidx_main_v24 (ix2 r j) k = ix2 r k := fun k => by idx2
  have er : ∀ k : Fin 2048, idx_main_v23 (ridx_main_v24 (ix2 r j) k) = ix2 j k := fun k => by idx2
  rw [val_main_v24_apply]
  simp only [val_main_v23_apply, el, er, u_apply]
  rfl

/-- `w · Bmᵀ`. -/
theorem bw_apply (r : Fin 8192) (j : Fin 2048) :
    val_main_v26 (F := Ideal) x0 x1 x2 x3 x4 x5 x6 x8 (ix2 r j)
      = Spec.mulT (fun k => Spec.uwRow (fun k => x0 (ix2 r k)) x1 (fun j => x2 (ix1 j)) x3 (fun j => x4 (ix1 j)) x5
          (fun j => x6 (ix1 j)) (Spec.hi k)) x8 j := by
  have el : ∀ k : Fin 2048, lidx_main_v26 (ix2 r j) k = ix2 r k := fun k => by idx2
  have er : ∀ k : Fin 2048, idx_main_v25 (ridx_main_v26 (ix2 r j) k) = ix2 j k := fun k => by idx2
  rw [val_main_v26_apply]
  simp only [val_main_v25_apply, el, er, w_apply]
  rfl

/-- The first combination `p` at row `r`, column `j`. -/
theorem p_apply (r : Fin 8192) (j : Fin 2048) :
    val_main_v35 (F := Ideal) x0 x1 x2 x3 x4 x5 x6 x7 x8 x9 (ix2 r j)
      = Spec.pRow
          (fun k => Spec.uwRow (fun k => x0 (ix2 r k)) x1 (fun j => x2 (ix1 j)) x3 (fun j => x4 (ix1 j)) x5
            (fun j => x6 (ix1 j)) (Spec.lo k))
          (fun k => Spec.uwRow (fun k => x0 (ix2 r k)) x1 (fun j => x2 (ix1 j)) x3 (fun j => x4 (ix1 j)) x5
            (fun j => x6 (ix1 j)) (Spec.hi k))
          x7 x8 (fun j => x9 (ix2 (0 : Fin 1) j)) j := by
  have eb : idx_main_v34 (ix2 r j) = ix2 (0 : Fin 1) j := by idx2
  rw [val_main_v35_apply, val_main_v33_apply, val_main_v31_apply, val_main_v29_apply, val_main_v27_apply,
    val_main_v28_apply, val_main_v30_apply, val_main_v32_apply, val_main_v34_apply, eb]
  simp only [u_apply, w_apply, gu_apply, gw_apply, bu_apply, bw_apply]
  rfl

/-- The second combination `q` at row `r`, column `j`. -/
theorem q_apply (r : Fin 8192) (j : Fin 2048) :
    val_main_v44 (F := Ideal) x0 x1 x2 x3 x4 x5 x6 x7 x8 x10 (ix2 r j)
      = Spec.qRow
          (fun k => Spec.uwRow (fun k => x0 (ix2 r k)) x1 (fun j => x2 (ix1 j)) x3 (fun j => x4 (ix1 j)) x5
            (fun j => x6 (ix1 j)) (Spec.lo k))
          (fun k => Spec.uwRow (fun k => x0 (ix2 r k)) x1 (fun j => x2 (ix1 j)) x3 (fun j => x4 (ix1 j)) x5
            (fun j => x6 (ix1 j)) (Spec.hi k))
          x7 x8 (fun j => x10 (ix2 (0 : Fin 1) j)) j := by
  have eb : idx_main_v43 (ix2 r j) = ix2 (0 : Fin 1) j := by idx2
  rw [val_main_v44_apply, val_main_v42_apply, val_main_v40_apply, val_main_v38_apply, val_main_v36_apply,
    val_main_v37_apply, val_main_v39_apply, val_main_v41_apply, val_main_v43_apply, eb]
  simp only [u_apply, w_apply, gu_apply, gw_apply, bu_apply, bw_apply]
  rfl

/-- The reference's second result at row `r`, column `j`. -/
theorem pout_apply (r : Fin 8192) (j : Fin 2048) :
    val_main_v49 (F := Ideal) x0 x1 x2 x3 x4 x5 x6 x7 x8 x9 x11 x12 (ix2 r j)
      = Spec.poutRow
          (fun k => Spec.uwRow (fun k => x0 (ix2 r k)) x1 (fun j => x2 (ix1 j)) x3 (fun j => x4 (ix1 j)) x5
            (fun j => x6 (ix1 j)) (Spec.lo k))
          (fun k => Spec.uwRow (fun k => x0 (ix2 r k)) x1 (fun j => x2 (ix1 j)) x3 (fun j => x4 (ix1 j)) x5
            (fun j => x6 (ix1 j)) (Spec.hi k))
          x7 x8 (fun j => x9 (ix2 (0 : Fin 1) j)) x11 (fun j => x12 (ix1 j)) j := by
  have el : ∀ k : Fin 2048, lidx_main_v46 (ix2 r j) k = ix2 r k := fun k => by idx2
  have er : ∀ k : Fin 2048, idx_main_v45 (ridx_main_v46 (ix2 r j) k) = ix2 j k := fun k => by idx2
  have eb : idx_main_v47 (idx_main_v48 (ix2 r j)) = ix1 j := by idx1
  rw [val_main_v49_apply, val_main_v46_apply, val_main_v48_apply, val_main_v47_apply]
  simp only [val_main_v45_apply, el, er, eb, p_apply]
  rfl

/-- The reference's third result at row `r`, column `j`. -/
theorem qout_apply (r : Fin 8192) (j : Fin 2048) :
    val_main_v54 (F := Ideal) x0 x1 x2 x3 x4 x5 x6 x7 x8 x10 x13 x14 (ix2 r j)
      = Spec.qoutRow
          (fun k => Spec.uwRow (fun k => x0 (ix2 r k)) x1 (fun j => x2 (ix1 j)) x3 (fun j => x4 (ix1 j)) x5
            (fun j => x6 (ix1 j)) (Spec.lo k))
          (fun k => Spec.uwRow (fun k => x0 (ix2 r k)) x1 (fun j => x2 (ix1 j)) x3 (fun j => x4 (ix1 j)) x5
            (fun j => x6 (ix1 j)) (Spec.hi k))
          x7 x8 (fun j => x10 (ix2 (0 : Fin 1) j)) x13 (fun j => x14 (ix1 j)) j := by
  have el : ∀ k : Fin 2048, lidx_main_v51 (ix2 r j) k = ix2 r k := fun k => by idx2
  have er : ∀ k : Fin 2048, idx_main_v50 (ridx_main_v51 (ix2 r j) k) = ix2 j k := fun k => by idx2
  have eb : idx_main_v52 (idx_main_v53 (ix2 r j)) = ix1 j := by idx1
  rw [val_main_v54_apply, val_main_v51_apply, val_main_v53_apply, val_main_v52_apply]
  simp only [val_main_v50_apply, el, er, eb, q_apply]
  rfl

/-- The reference's second result is the specification's first decoder output. -/
theorem pout_eq :
    val_main_v49 (F := Ideal) x0 x1 x2 x3 x4 x5 x6 x7 x8 x9 x11 x12
      = Spec.POUT x0 x1 x2 x3 x4 x5 x6 x7 x8 x9 x11 x12 := by
  funext i
  obtain ⟨r, j, rfl⟩ : ∃ (r : Fin 8192) (j : Fin 2048), i = ix2 r j := ⟨i 0, i 1, eq_ix2 i⟩
  rw [pout_apply]
  rfl

/-- The reference's third result is the specification's second decoder output. -/
theorem qout_eq :
    val_main_v54 (F := Ideal) x0 x1 x2 x3 x4 x5 x6 x7 x8 x10 x13 x14
      = Spec.QOUT x0 x1 x2 x3 x4 x5 x6 x7 x8 x10 x13 x14 := by
  funext i
  obtain ⟨r, j, rfl⟩ : ∃ (r : Fin 8192) (j : Fin 2048), i = ix2 r j := ⟨i 0, i 1, eq_ix2 i⟩
  rw [qout_apply]
  rfl

end Decoder

/-! ## The run's result terms -/

section Run
variable (m : (ℓ : Loc nD τ sig) → Buf (Elt Ideal) ℓ) (c : Dev nD)

/-- The run's second result term is the specification's first decoder output of the arguments. -/
theorem res_pout_eq :
    Cert.ReferenceIdeal.Value.res_main_v49 (F := Ideal) m c
      = Spec.POUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) :=
  (val_main_v49_eq m c).trans (pout_eq _ _ _ _ _ _ _ _ _ _ _ _)

/-- The run's third result term is the specification's second decoder output of the arguments. -/
theorem res_qout_eq :
    Cert.ReferenceIdeal.Value.res_main_v54 (F := Ideal) m c
      = Spec.QOUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg13)) (m ((c.tc : Thread nD τ).loc main_arg14)) :=
  (val_main_v54_eq m c).trans (qout_eq _ _ _ _ _ _ _ _ _ _ _ _)

end Run

end Cert.RefSpec

end
-- ==== Proof.lean ====
/-
  The kernel is an encoder — three affine layers x·Wᵀ + b, a rectifier after the first two — followed by a decoder that
  splits each encoder output row into halves u and w, multiplies each by the transposes of G and Bm, combines the four
  products elementwise into p = u·Gu + w·Gw + w·Bu − u·Bw + bias_p and q = w·Gu − u·Gw − u·Bu − w·Bw + bias_q, and applies
  one more affine layer to each. It runs as two grid calls tiled over the rows (256 rows a point, then 128), every weight
  resident; the reference is the same expression tree in jnp. Over the extended reals the casts to bf16 are the identity
  and a matrix product into a zero accumulator is the plain sum, so both programs compute ONE function of the arguments,
  row by row (Spec.lean); no algebraic law beyond reindexing a finite sum is used, and the precondition is never opened.
  The frames: the two calls are entered one after the other from known contents of every unscoped buffer; the decoder
  reads the encoder's result through two windows, the array's share dealt between them (Deal.lean, Run.lean); no item
  writes an argument (Entry.lean). The values: each call's output array is the fold of its flushed blocks, every index
  covered, each block the row specification of the entry contents (EncFinal.lean, DecFinal.lean), the entry contents read
  back to the launch memory (EntryIdeal.lean, Final.lean); the reference's run is that specification (RefSpec.lean).
-/
import proofs.«112110_j14396730376924_2_alg».proof.Defs
import proofs.«112110_j14396730376924_2_alg».proof.Proof.Gen.Kernel
import proofs.«112110_j14396730376924_2_alg».proof.Proof.Gen.KernelIdeal
import proofs.«112110_j14396730376924_2_alg».proof.Proof.Gen.ReferenceIdeal
import proofs.«112110_j14396730376924_2_alg».proof.Proof.Gen.Pre_finite_inputs
import proofs.«112110_j14396730376924_2_alg».proof.Proof.Gen.ReferenceIdeal.Run
import proofs.«112110_j14396730376924_2_alg».proof.Proof.Gen.ReferenceIdeal.Read
import proofs.«112110_j14396730376924_2_alg».proof.Proof.KEntry
import proofs.«112110_j14396730376924_2_alg».proof.Proof.Final
import proofs.«112110_j14396730376924_2_alg».proof.Proof.RefSpec
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame_all (F := Bits) m ρ
/-- The same of the idealized kernel. -/
theorem frame_ki : Cert.frame_KernelIdeal := fun m ρ _ => Cert.KernelIdeal.Hand.frame_all (F := Ideal) m ρ
/-- The reference is host operations only: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs, from memories agreeing on the arguments, end with each result at the specification of the
    arguments: the kernel's three arrays read off its run, the reference's three terms by their index-by-index reading. -/
theorem algebraic : Cert.algebraic_KernelIdeal_ReferenceIdeal := by
  intro m ρ m' ρ' _ hagree
  refine ⟨fun c => Cert.Spec.UW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.POUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.QOUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Hand.mem_uc Cert.KernelIdeal.main_v10 (by decide))).trans (Cert.KernelIdeal.Hand.res_uw m ρ c),
       (h c _ (Cert.KernelIdeal.Hand.mem_uc Cert.KernelIdeal.main_v13_0 (by decide))).trans (Cert.KernelIdeal.Hand.res_p m ρ c),
       (h c _ (Cert.KernelIdeal.Hand.mem_uc Cert.KernelIdeal.main_v13_1 (by decide))).trans (Cert.KernelIdeal.Hand.res_q m ρ c),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c),
       (h c _ (Cert.KernelIdeal.Hand.mem_uc Cert.KernelIdeal.main_arg9 (by decide))).trans (Cert.KernelIdeal.Hand.W4_main_arg9 m ρ c),
       (h c _ (Cert.KernelIdeal.Hand.mem_uc Cert.KernelIdeal.main_arg10 (by decide))).trans (Cert.KernelIdeal.Hand.W4_main_arg10 m ρ c),
       (h c _ (Cert.KernelIdeal.Hand.mem_uc Cert.KernelIdeal.main_arg11 (by decide))).trans (Cert.KernelIdeal.Hand.W4_main_arg11 m ρ c),
       (h c _ (Cert.KernelIdeal.Hand.mem_uc Cert.KernelIdeal.main_arg12 (by decide))).trans (Cert.KernelIdeal.Hand.W4_main_arg12 m ρ c),
       (h c _ (Cert.KernelIdeal.Hand.mem_uc Cert.KernelIdeal.main_arg13 (by decide))).trans (Cert.KernelIdeal.Hand.W4_main_arg13 m ρ c),
       (h c _ (Cert.KernelIdeal.Hand.mem_uc Cert.KernelIdeal.main_arg14 (by decide))).trans (Cert.KernelIdeal.Hand.W4_main_arg14 m ρ c)⟩)
      (Cert.KernelIdeal.Hand.run_all (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14⟩ := hagree c
    refine ⟨?_, ?_, ?_, (h c).2.2.2⟩
    · beta_reduce
      rw [← a0, ← a1, ← a2, ← a3, ← a4, ← a5, ← a6]
      exact (h c).1.trans ((Cert.ReferenceIdeal.Read.val_main_v16_eq _ _ _ _ _ _ _).trans (Cert.RefSpec.uw_eq _ _ _ _ _ _ _))
    · beta_reduce
      rw [← a0, ← a1, ← a2, ← a3, ← a4, ← a5, ← a6, ← a7, ← a8, ← a9, ← a11, ← a12]
      exact (h c).2.1.trans (Cert.RefSpec.res_pout_eq m' c)
    · beta_reduce
      rw [← a0, ← a1, ← a2, ← a3, ← a4, ← a5, ← a6, ← a7, ← a8, ← a10, ← a13, ← a14]
      exact (h c).2.2.1.trans (Cert.RefSpec.res_qout_eq m' c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
